-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S_ : Shape := ⟨0, ![]⟩

class Facts : Prop where
  bcast_S_S8x1024x1 : S_.BroadcastsInDim S8x1024x1 (![] : Fin 0 → Fin S8x1024x1.rank)
  reducesTo_S8x1024x1_S_d0_1_2 : S8x1024x1.ReducesTo [0, 1, 2] S_
  h_S_ : 0 < S_.numel
  bcast_S_S8x1024x8 : S_.BroadcastsInDim S8x1024x8 (![] : Fin 0 → Fin S8x1024x8.rank)
  reducesTo_S8x1024x8_S_d0_1_2 : S8x1024x8.ReducesTo [0, 1, 2] S_
  bcast_S_S9 : S_.BroadcastsInDim S9 (![] : Fin 0 → Fin S9.rank)
  reducesTo_S9_S_d0 : S9.ReducesTo [0] S_
  bcast_S_S16x9 : S_.BroadcastsInDim S16x9 (![] : Fin 0 → Fin S16x9.rank)
  reducesTo_S16x9_S_d0_1 : S16x9.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16x9 .f32) (main_arg5 : FVec F S16 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S16x9 .f32 := Host.absf main_arg4
  let main_cst_6 : FVec F S_ .f32 := constant S_ .f32 0x7F800000#32
  let main_v20 : FVec F S16x9 .f32 := broadcastInDim S16x9 ![] bcast_S_S16x9 main_cst_6
  let main_v21 : IVec S16x9 1 := cmpf .olt main_v19 main_v20
  let main_c_7 : IVec S_ 1 := constantI S_ 1 1#1
  let main_v22 : IVec S_ 1 := (fun x v => Host.reduce IntOp.andi x v reducesTo_S16x9_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S8x1024x1 .f32) (main_arg1 : FVec F S8x1024x8 .f32) (main_arg2 : FVec F S8x1024x1 .f32) (main_arg3 : FVec F S9 .f32) (main_arg4 : FVec F S16x9 .f32) (main_arg5 : FVec F S16 .f32) : IVec S_ 1 :=
  let main_v0 : FVec F S8x1024x1 .f32 := Host.absf main_arg0
  let main_cst : FVec F S_ .f32 := constant S_ .f32 0x7F800000#32
  let main_v1 : FVec F S8x1024x1 .f32 := broadcastInDim S8x1024x1 ![] bcast_S_S8x1024x1 main_cst
  let main_v2 : IVec S8x1024x1 1 := cmpf .olt main_v0 main_v1
  let main_c : IVec S_ 1 := constantI S_ 1 1#1
  let main_v3 : IVec S_ 1 := (fun x v => Host.reduce IntOp.andi x v reducesTo_S8x1024x1_S_d0_1_2 h_S_) main_v2 main_c
  let main_v4 : FVec F S8x1024x8 .f32 := Host.absf main_arg1
  let main_cst_0 : FVec F S_ .f32 := constant S_ .f32 0x7F800000#32
  let main_v5 : FVec F S8x1024x8 .f32 := broadcastInDim S8x1024x8 ![] bcast_S_S8x1024x8 main_cst_0
  let main_v6 : IVec S8x1024x8 1 := cmpf .olt main_v4 main_v5
  let main_c_1 : IVec S_ 1 := constantI S_ 1 1#1
  let main_v7 : IVec S_ 1 := (fun x v => Host.reduce IntOp.andi x v reducesTo_S8x1024x8_S_d0_1_2 h_S_) main_v6 main_c_1
  let main_v8 : IVec S_ 1 := andi main_v3 main_v7
  let main_v9 : FVec F S8x1024x1 .f32 := Host.absf main_arg2
  let main_cst_2 : FVec F S_ .f32 := constant S_ .f32 0x7F800000#32
  let main_v10 : FVec F S8x1024x1 .f32 := broadcastInDim S8x1024x1 ![] bcast_S_S8x1024x1 main_cst_2
  let main_v11 : IVec S8x1024x1 1 := cmpf .olt main_v9 main_v10
  let main_c_3 : IVec S_ 1 := constantI S_ 1 1#1
  let main_v12 : IVec S_ 1 := (fun x v => Host.reduce IntOp.andi x v reducesTo_S8x1024x1_S_d0_1_2 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg4 main_arg5 main_v13 main_v16
-- ==== Kernel.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S8x1x1024 : Shape := ⟨3, ![8, 1, 1024]⟩
abbrev S_ : Shape := ⟨0, ![]⟩
abbrev S8x1024x9 : Shape := ⟨3, ![8, 1024, 9]⟩
abbrev S8x9x1024 : Shape := ⟨3, ![8, 9, 1024]⟩
abbrev S1x9 : Shape := ⟨2, ![1, 9]⟩
abbrev S1x16 : Shape := ⟨2, ![1, 16]⟩
abbrev S8x1024x16 : Shape := ⟨3, ![8, 1024, 16]⟩
abbrev S1x1x1024 : Shape := ⟨3, ![1, 1, 1024]⟩
abbrev S1x9x1024 : Shape := ⟨3, ![1, 9, 1024]⟩
abbrev S1x128x1 : Shape := ⟨3, ![1, 128, 1]⟩
abbrev S1x128x16 : Shape := ⟨3, ![1, 128, 16]⟩
abbrev S1x1024 : Shape := ⟨2, ![1, 1024]⟩
abbrev S9x1024 : Shape := ⟨2, ![9, 1024]⟩
abbrev S128x1 : Shape := ⟨2, ![128, 1]⟩
abbrev S128x1024 : Shape := ⟨2, ![128, 1024]⟩
abbrev S1x128x1024 : Shape := ⟨3, ![1, 128, 1024]⟩
abbrev S9x1x1 : Shape := ⟨3, ![9, 1, 1]⟩
abbrev S9x128x1024 : Shape := ⟨3, ![9, 128, 1024]⟩
abbrev S9x1024x1 : Shape := ⟨3, ![9, 1024, 1]⟩
abbrev S9x128x1 : Shape := ⟨3, ![9, 128, 1]⟩
abbrev S9x128 : Shape := ⟨2, ![9, 128]⟩
abbrev S1x128 : Shape := ⟨2, ![1, 128]⟩
abbrev S8x128 : Shape := ⟨2, ![8, 128]⟩
abbrev S128x9 : Shape := ⟨2, ![128, 9]⟩
abbrev S128x9x1 : Shape := ⟨3, ![128, 9, 1]⟩
abbrev S9x16 : Shape := ⟨2, ![9, 16]⟩
abbrev S1x9x16 : Shape := ⟨3, ![1, 9, 16]⟩
abbrev S128x9x16 : Shape := ⟨3, ![128, 9, 16]⟩
abbrev S128x16 : Shape := ⟨2, ![128, 16]⟩

abbrev nBuf : Space → Nat
  | .hbm => 15
  | .vmem => 11
  | .smem => 0
  | _ => 0

abbrev bufTy : (tb : Table) → Fin (tcTables nBuf tb) → BufTy
  | .hbm, ⟨0, _⟩ => ⟨S8x1024x1, .f32⟩
  | .hbm, ⟨1, _⟩ => ⟨S8x1024x8, .f32⟩
  | .hbm, ⟨2, _⟩ => ⟨S8x1024x1, .f32⟩
  | .hbm, ⟨3, _⟩ => ⟨S9, .f32⟩
  | .hbm, ⟨4, _⟩ => ⟨S16x9, .f32⟩
  | .hbm, ⟨5, _⟩ => ⟨S16, .f32⟩
  | .hbm, ⟨6, _⟩ => ⟨S8x1x1024, .f32⟩
  | .hbm, ⟨7, _⟩ => ⟨S8x1024x1, .f32⟩
  | .hbm, ⟨8, _⟩ => ⟨S_, .f32⟩
  | .hbm, ⟨9, _⟩ => ⟨S8x1024x1, .f32⟩
  | .hbm, ⟨10, _⟩ => ⟨S8x1024x9, .f32⟩
  | .hbm, ⟨11, _⟩ => ⟨S8x9x1024, .f32⟩
  | .hbm, ⟨12, _⟩ => ⟨S1x9, .f32⟩
  | .hbm, ⟨13, _⟩ => ⟨S1x16, .f32⟩
  | .hbm, ⟨14, _⟩ => ⟨S8x1024x16, .f32⟩
  | .local _ .vmem, ⟨0, _⟩ => ⟨S1x1x1024, .f32⟩
  | .local _ .vmem, ⟨1, _⟩ => ⟨S1x1x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x128x1, .f32⟩
  | .local _ .vmem, ⟨5, _⟩ => ⟨S1x128x1, .f32⟩
  | .local _ .vmem, ⟨6, _⟩ => ⟨S1x9, .f32⟩
  | .local _ .vmem, ⟨7, _⟩ => ⟨S16x9, .f32⟩
  | .local _ .vmem, ⟨8, _⟩ => ⟨S1x16, .f32⟩
  | .local _ .vmem, ⟨9, _⟩ => ⟨S1x128x16, .f32⟩
  | .local _ .vmem, ⟨10, _⟩ => ⟨S1x128x16, .f32⟩
  | _, _ => ⟨S8x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x1024x1_S8x1x1024_0_2_1 : S8x1024x1.Transposes [0, 2, 1] S8x1x1024
  slices_S8x1024x8_S8x1024x1_0_0_0 : S8x1024x8.Slices ![0, 0, 0] S8x1024x1
  bcast_S_S8x1024x1 : S_.BroadcastsInDim S8x1024x1 (![] : Fin 0 → Fin S8x1024x1.rank)
  concatenates_S8x1024x1_S8x1024x8_S8x1024x9_d2 : Shape.Concatenates [S8x1024x1, S8x1024x8] S8x1024x9 2
  transposes_S8x1024x9_S8x9x1024_0_2_1 : S8x1024x9.Transposes [0, 2, 1] S8x9x1024
  shapeCasts_S9_S1x9 : S9.ShapeCasts S1x9
  shapeCasts_S16_S1x16 : S16.ShapeCasts S1x16
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x9x1024_S1x9x1024_0_0_0 : ∀ a, (![0, 0, 0] : Fin 3 → Nat) a + S1x9x1024.size a ≤ S1x9x1024.size a
  h_S1x9x1024 : 0 < S1x9x1024.numel
  shapeCasts_S1x9x1024_S9x1024 : S1x9x1024.ShapeCasts S9x1024
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x9_S1x9_0_0 : ∀ a, (![0, 0] : Fin 2 → Nat) a + S1x9.size a ≤ S1x9.size a
  h_S1x9 : 0 < S1x9.numel
  shapeCasts_S1x9_S9 : S1x9.ShapeCasts S9
  inb_S16x9_S16x9_0_0 : ∀ a, (![0, 0] : Fin 2 → Nat) a + S16x9.size a ≤ S16x9.size a
  h_S16x9 : 0 < S16x9.numel
  inb_S1x16_S1x16_0_0 : ∀ a, (![0, 0] : Fin 2 → Nat) a + S1x16.size a ≤ S1x16.size a
  h_S1x16 : 0 < S1x16.numel
  shapeCasts_S1x16_S16 : S1x16.ShapeCasts S16
  broadcasts_S128x1_S128x1024 : S128x1.Broadcasts S128x1024
  broadcasts_S1x1024_S128x1024 : S1x1024.Broadcasts S128x1024
  shapeCasts_S128x1024_S1x128x1024 : S128x1024.ShapeCasts S1x128x1024
  shapeCasts_S9_S9x1x1 : S9.ShapeCasts S9x1x1
  broadcasts_S1x128x1024_S9x128x1024 : S1x128x1024.Broadcasts S9x128x1024
  broadcasts_S9x1x1_S9x128x1024 : S9x1x1.Broadcasts S9x128x1024
  bitsLt_bf16_f32 : FTy.bits .bf16 < FTy.bits .f32
  shapeCasts_S9x1024_S9x1024x1 : S9x1024.ShapeCasts S9x1024x1
  shapeCasts_S9x128x1_S9x128 : S9x128x1.ShapeCasts S9x128
  slices_S9x128_o0_0_S1x128 : S9x128.Slices ![0, 0] S1x128
  slices_S9x128_o1_0_S8x128 : S9x128.Slices ![1, 0] S8x128
  broadcasts_S1x128_S8x128 : S1x128.Broadcasts S8x128
  concatenates_S1x128_S8x128_S9x128_d0 : Shape.Concatenates [S1x128, S8x128] S9x128 0
  transposes_S9x128_p1_0_S128x9 : S9x128.Transposes [1, 0] S128x9
  shapeCasts_S128x9_S128x9x1 : S128x9.ShapeCasts S128x9x1
  transposes_S16x9_p1_0_S9x16 : S16x9.Transposes [1, 0] S9x16
  shapeCasts_S9x16_S1x9x16 : S9x16.ShapeCasts S1x9x16
  broadcasts_S128x9x1_S128x9x16 : S128x9x1.Broadcasts S128x9x16
  broadcasts_S1x9x16_S128x9x16 : S1x9x16.Broadcasts S128x9x16
  reduces_S128x9x16_S128x16 : S128x9x16.Reduces [1] S128x16
  broadcasts_S1x16_S128x16 : S1x16.Broadcasts S128x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  shapeCasts_S128x16_S1x128x16 : S128x16.ShapeCasts S1x128x16
  dot_S9x128x1024_S9x1024x1_S9x128x1_2_1_1_2_0_0_wf : DotDims.WF S9x128x1024 S9x1024x1 S9x128x1 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S8x1x1024.size a
  hwx0_0 : ∀ i : grid0.Coords, EltTy.bits .f32 = 32 ∨ (Rect.block (s := S8x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x1024.size a ≤ S8x9x1024.size a
  hwx0_1 : ∀ i : grid0.Coords, EltTy.bits .f32 = 32 ∨ (Rect.block (s := S8x9x1024) S1x9x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x1024x1.size a
  hwx0_2 : ∀ i : grid0.Coords, EltTy.bits .f32 = 32 ∨ (Rect.block (s := S8x1024x1) S1x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x9.size a ≤ S16x9.size a
  hwx0_4 : ∀ i : grid0.Coords, EltTy.bits .f32 = 32 ∨ (Rect.block (s := S16x9) S16x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x16.size a ≤ S8x1024x16.size a
  hwx0_6 : ∀ i : grid0.Coords, EltTy.bits .f32 = 32 ∨ (Rect.block (s := S8x1024x16) S1x128x16.size (cc0_transform_6 i) (hinb0_6 i)).WholeWords (EltTy.packing .f32)

variable [Facts₀]

def dot_S9x128x1024_S9x1024x1_S9x128x1_2_1_1_2_0_0 : DotDims S9x128x1024 S9x1024x1 S9x128x1 where
  lhsContracting := [2]
  rhsContracting := [1]
  lhsNonContracting := [1]
  rhsNonContracting := [2]
  lhsBatch := [0]
  rhsBatch := [0]
  wf := dot_S9x128x1024_S9x1024x1_S9x128x1_2_1_1_2_0_0_wf

abbrev win0_0 : Pipeline.Window sig grid0 :=
  Pipeline.Window.ofSpec (Memref.whole main_v0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x9x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x1024x1 : Shape := ⟨3, ![8, 1024, 1]⟩
abbrev S8x1024x8 : Shape := ⟨3, ![8, 1024, 8]⟩
abbrev S9 : Shape := ⟨1, ![9]⟩
abbrev S16x9 : Shape := ⟨2, ![16, 9]⟩
abbrev S16 : Shape := ⟨1, ![16]⟩
abbrev S8x1x1024 : Shape := ⟨3, ![8, 1, 1024]⟩
abbrev S8x1024x1024 : Shape := ⟨3, ![8, 1024, 1024]⟩
abbrev S8x1024x1024x1 : Shape := ⟨4, ![8, 1024, 1024, 1]⟩
abbrev S_ : Shape := ⟨0, ![]⟩
abbrev S1x1x1x9 : Shape := ⟨4, ![1, 1, 1, 9]⟩
abbrev S8x1024x1024x9 : Shape := ⟨4, ![8, 1024, 1024, 9]⟩
abbrev S8x1024x9 : Shape := ⟨3, ![8, 1024, 9]⟩
abbrev S8x1024x1x9 : Shape := ⟨4, ![8, 1024, 1, 9]⟩
abbrev S8x1024x16 : Shape := ⟨3, ![8, 1024, 16]⟩
abbrev S1x1x16 : Shape := ⟨3, ![1, 1, 16]⟩

abbrev nBuf : Space → Nat
  | .hbm => 43
  | .vmem => 0
  | .smem => 0
  | _ => 0

abbrev bufTy : (tb : Table) → Fin (tcTables nBuf tb) → BufTy
  | .hbm, ⟨0, _⟩ => ⟨S8x1024x1, .f32⟩
  | .hbm, ⟨1, _⟩ => ⟨S8x1024x8, .f32⟩
  | .hbm, ⟨2, _⟩ => ⟨S8x1024x1, .f32⟩
  | .hbm, ⟨3, _⟩ => ⟨S9, .f32⟩
  | .hbm, ⟨4, _⟩ => ⟨S16x9, .f32⟩
  | .hbm, ⟨5, _⟩ => ⟨S16, .f32⟩
  | .hbm, ⟨6, _⟩ => ⟨S8x1x1024, .f32⟩
  | .hbm, ⟨7, _⟩ => ⟨S8x1024x1024, .f32⟩
  | .hbm, ⟨8, _⟩ => ⟨S8x1024x1024, .f32⟩
  | .hbm, ⟨9, _⟩ => ⟨S8x1024x1024, .f32⟩
  | .hbm, ⟨10, _⟩ => ⟨S8x1024x1024, .f32⟩
  | .hbm, ⟨11, _⟩ => ⟨S9, .f32⟩
  | .hbm, ⟨12, _⟩ => ⟨S8x1024x1024x1, .f32⟩
  | .hbm, ⟨13, _⟩ => ⟨S_, .f32⟩
  | .hbm, ⟨14, _⟩ => ⟨S8x1024x1024x1, .f32⟩
  | .hbm, ⟨15, _⟩ => ⟨S8x1024x1024x1, .f32⟩
  | .hbm, ⟨16, _⟩ => ⟨S9, .f32⟩
  | .hbm, ⟨17, _⟩ => ⟨S1x1x1x9, .f32⟩
  | .hbm, ⟨18, _⟩ => ⟨S8x1024x1024x9, .f32⟩
  | .hbm, ⟨19, _⟩ => ⟨S8x1024x1024x9, .f32⟩
  | .hbm, ⟨20, _⟩ => ⟨S8x1024x1024x9, .f32⟩
  | .hbm, ⟨21, _⟩ => ⟨S8x1024x1024x9, .f32⟩
  | .hbm, ⟨22, _⟩ => ⟨S8x1024x1, .f32⟩
  | .hbm, ⟨23, _⟩ => ⟨S_, .f32⟩
  | .hbm, ⟨24, _⟩ => ⟨S8x1024x1, .f32⟩
  | .hbm, ⟨25, _⟩ => ⟨S8x1024x9, .f32⟩
  | .hbm, ⟨26, _⟩ => ⟨S8x1024x1x9, .f32⟩
  | .hbm, ⟨27, _⟩ => ⟨S8x1024x1024x9, .f32⟩
  | .hbm, ⟨28, _⟩ => ⟨S8x1024x1024x9, .f32⟩
  | .hbm, ⟨29, _⟩ => ⟨S_, .f32⟩
  | .hbm, ⟨30, _⟩ => ⟨S8x1024x9, .f32⟩
  | .hbm, ⟨31, _⟩ => ⟨S8x1024x1, .f32⟩
  | .hbm, ⟨32, _⟩ => ⟨S8x1024x8, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S8x1024x8, .f32⟩
  | .hbm, ⟨37, _⟩ => ⟨S8x1024x8, .f32⟩
  | .hbm, ⟨38, _⟩ => ⟨S8x1024x9, .f32⟩
  | .hbm, ⟨39, _⟩ => ⟨S8x1024x16, .f32⟩
  | .hbm, ⟨40, _⟩ => ⟨S1x1x16, .f32⟩
  | .hbm, ⟨41, _⟩ => ⟨S8x1024x16, .f32⟩
  | .hbm, ⟨42, _⟩ => ⟨S8x1024x16, .f32⟩
  | _, _ => ⟨S8x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  transposes_S8x1024x1_S8x1x1024_0_2_1 : S8x1024x1.Transposes [0, 2, 1] S8x1x1024
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S8x1024x1024_S8x1024x1024x1_0_1_2 : S8x1024x1024.BroadcastsInDim S8x1024x1024x1 (![0, 1, 2] : Fin 3 → Fin S8x1024x1024x1.rank)
  bcast_S_S8x1024x1024x1 : S_.BroadcastsInDim S8x1024x1024x1 (![] : Fin 0 → Fin S8x1024x1024x1.rank)
  bcast_S9_S1x1x1x9_3 : S9.BroadcastsInDim S1x1x1x9 (![3] : Fin 1 → Fin S1x1x1x9.rank)
  bcast_S8x1024x1024x1_S8x1024x1024x9_0_1_2_3 : S8x1024x1024x1.BroadcastsInDim S8x1024x1024x9 (![0, 1, 2, 3] : Fin 4 → Fin S8x1024x1024x9.rank)
  bcast_S1x1x1x9_S8x1024x1024x9_0_1_2_3 : S1x1x1x9.BroadcastsInDim S8x1024x1024x9 (![0, 1, 2, 3] : Fin 4 → Fin S8x1024x1024x9.rank)
  slices_S8x1024x8_S8x1024x1_0_0_0 : S8x1024x8.Slices ![0, 0, 0] S8x1024x1
  bcast_S_S8x1024x1 : S_.BroadcastsInDim S8x1024x1 (![] : Fin 0 → Fin S8x1024x1.rank)
  concatenates_S8x1024x1_S8x1024x8_S8x1024x9_d2 : Shape.Concatenates [S8x1024x1, S8x1024x8] S8x1024x9 2
  bcast_S8x1024x9_S8x1024x1x9_0_1_3 : S8x1024x9.BroadcastsInDim S8x1024x1x9 (![0, 1, 3] : Fin 3 → Fin S8x1024x1x9.rank)
  bcast_S8x1024x1x9_S8x1024x1024x9_0_1_2_3 : S8x1024x1x9.BroadcastsInDim S8x1024x1024x9 (![0, 1, 2, 3] : Fin 4 → Fin S8x1024x1024x9.rank)
  reducesTo_S8x1024x1024x9_S8x1024x9_d1 : S8x1024x1024x9.ReducesTo [1] S8x1024x9
  h_S_ : 0 < S_.numel
  slices_S8x1024x9_S8x1024x1_0_0_0 : S8x1024x9.Slices ![0, 0, 0] S8x1024x1
  slices_S8x1024x9_S8x1024x8_0_0_1 : S8x1024x9.Slices ![0, 0, 1] S8x1024x8
  bcast_S8x1024x1_S8x1024x8_0_1_2 : S8x1024x1.BroadcastsInDim S8x1024x8 (![0, 1, 2] : Fin 3 → Fin S8x1024x8.rank)
  bcast_S16_S1x1x16_2 : S16.BroadcastsInDim S1x1x16 (![2] : Fin 1 → Fin S1x1x16.rank)
  bcast_S1x1x16_S8x1024x16_0_1_2 : S1x1x16.BroadcastsInDim S8x1024x16 (![0, 1, 2] : Fin 3 → Fin S8x1024x16.rank)
  dot_S8x1024x9_S16x9_S8x1024x16_2_1_01_0_n_n_wf : DotDims.WF S8x1024x9 S16x9 S8x1024x16 [2] [1] [0, 1] [0] [] []

variable [Facts₀]

def dot_S8x1024x9_S16x9_S8x1024x16_2_1_01_0_n_n : DotDims S8x1024x9 S16x9 S8x1024x16 where
  lhsContracting := [2]
  rhsContracting := [1]
  lhsNonContracting := [0, 1]
  rhsNonContracting := [0]
  lhsBatch := []
  rhsBatch := []
  wf := dot_S8x1024x9_S16x9_S8x1024x16_2_1_01_0_n_n_wf

class Facts : Prop extends Facts₀ where

variable [Facts]
-- ==== Proof.SetConvSpec.lean ====
/-
  The set convolution with Gaussian weights followed by a pointwise linear layer, as ONE function of the six
  argument arrays, entry by entry.

  Arguments: context positions x[b,n] and target positions t[b,m] (stored with a trailing unit axis), context
  features y[b,n,k] (k < 8), log length scales σ[c] (c < 9), a weight matrix W[o,c] (o < 16) and a bias β[o].

    chan  b n c   = 1 for c = 0 (the density channel), y[b,n,c-1] for c ≥ 1
    weight b n m c = exp( (h · (x[b,n] - t[b,m])²) / (e^σ[c] · e^σ[c]) )           h the constant -1/2
    summed b m c  = Σ_n chan b n c · weight b n m c
    normed b m c  = summed b m 0 for c = 0,  summed b m c / (summed b m 0 + ε) for c ≥ 1
    result b m o  = Σ_c normed b m c · W[o,c]  +  β[o]

  The float constants stay as their bit patterns: both programs use the same ones, so they are never evaluated
  here. Sums are finite sums of extended reals; the quotient is `Ideal.div`.
-/
import Idealize.ShloMosaic.PureOps.Ideal
import Idealize.ShloMosaic.Lib.ValueIdx

noncomputable section

open scoped BigOperators

namespace Cert.SetConv

open Idealize.ShloMosaic Idealize.ShloMosaic.ValueIdx

/-- Positions: [8, 1024, 1]. -/
abbrev PosArr := (⟨3, ![8, 1024, 1]⟩ : Shape).Idx → EReal
/-- Features: [8, 1024, 8]. -/
abbrev FeatArr := (⟨3, ![8, 1024, 8]⟩ : Shape).Idx → EReal
/-- Log length scales: [9]. -/
abbrev ScaleArr := (⟨1, ![9]⟩ : Shape).Idx → EReal
/-- The linear layer's matrix: [16, 9]. -/
abbrev MatArr := (⟨2, ![16, 9]⟩ : Shape).Idx → EReal
/-- The linear layer's bias: [16]. -/
abbrev BiasArr := (⟨1, ![16]⟩ : Shape).Idx → EReal
/-- The result: [8, 1024, 16]. -/
abbrev OutArr := (⟨3, ![8, 1024, 16]⟩ : Shape).Idx → EReal

/-- The feature channel below channel `c ≥ 1`. -/
abbrev below (c : Fin 9) (hc : c.val ≠ 0) : Fin 8 := ⟨c.val - 1, by have := c.isLt; omega⟩

/-- Channel `c` of context point `n`: the constant one for the density channel, the features otherwise. -/
def chan (y : FeatArr) (b : Fin 8) (n : Fin 1024) (c : Fin 9) : EReal :=
  if hc : c.val = 0 then Ideal.ofBits .f32 0x3F800000#32 else y (ix3 b n (below c hc))

/-- The Gaussian weight of context point `n` at target point `m` for channel `c`'s length scale. -/
def weight (x t : PosArr) (σ : ScaleArr) (b : Fin 8) (n m : Fin 1024) (c : Fin 9) : EReal :=
  Ideal.exp (Ideal.div
    (Ideal.ofBits .f32 0xBF000000#32
      * ((x (ix3 b n (0 : Fin 1)) - t (ix3 b m (0 : Fin 1))) * (x (ix3 b n (0 : Fin 1)) - t (ix3 b m (0 : Fin 1)))))
    (Ideal.exp (σ (ix1 c)) * Ideal.exp (σ (ix1 c))))

/-- The weighted sum over the context points. -/
def summed (x : PosArr) (y : FeatArr) (t : PosArr) (σ : ScaleArr) (b : Fin 8) (m : Fin 1024) (c : Fin 9) : EReal :=
  ∑ n : Fin 1024, chan y b n c * weight x t σ b n m c

/-- The density channel kept, every other channel divided by the density plus ε. -/
def normed (x : PosArr) (y : FeatArr) (t : PosArr) (σ : ScaleArr) (b : Fin 8) (m : Fin 1024) (c : Fin 9) : EReal :=
  if c.val = 0 then summed x y t σ b m (0 : Fin 9)
  else Ideal.div (summed x y t σ b m c) (summed x y t σ b m (0 : Fin 9) + Ideal.ofBits .f32 0x322BCC77#32)

/-- The result at batch `b`, target point `m`, output channel `o`. -/
def resultAt (x : PosArr) (y : FeatArr) (t : PosArr) (σ : ScaleArr) (W : MatArr) (β : BiasArr)
    (b : Fin 8) (m : Fin 1024) (o : Fin 16) : EReal :=
  (∑ c : Fin 9, normed x y t σ b m c * W (ix2 o c)) + β (ix1 o)

/-- The whole result array. -/
def result (x : PosArr) (y : FeatArr) (t : PosArr) (σ : ScaleArr) (W : MatArr) (β : BiasArr) : OutArr :=
  fun i => resultAt x y t σ W β ⟨(i 0).val, (i 0).isLt⟩ ⟨(i 1).val, (i 1).isLt⟩ ⟨(i 2).val, (i 2).isLt⟩

theorem result_ix3 (x : PosArr) (y : FeatArr) (t : PosArr) (σ : ScaleArr) (W : MatArr) (β : BiasArr)
    (b : Fin 8) (m : Fin 1024) (o : Fin 16) : result x y t σ W β (ix3 b m o) = resultAt x y t σ W β b m o := rfl

end Cert.SetConv

end
-- ==== Proof.TileInputs.lean ====
/-
  What a grid point's input blocks hold, in terms of the argument arrays.

  Before the kernel is launched the program lays its arguments out: the context positions [8,1024,1] transposed to
  rows [8,1,1024]; a column of ones put in front of the features and the result transposed to [8,9,1024], so that
  entry (b, c, n) is channel c of context point n; the log length scales and the bias recast to [1,9] and [1,16].
  Grid point t = 8·b + k (b the batch element, k the tile of 128 target points) stages row b of the positions,
  slab b of the channels, rows 128·k … 128·k+127 of the target positions, and the three small arrays whole.
-/
import proofs.«100549_j463856468358_2_alg».proof.Proof.Gen.KernelIdeal.Value
import proofs.«100549_j463856468358_2_alg».proof.Proof.SetConvSpec
import Idealize.ShloMosaic.Lib.ValueIdx
import Idealize.ShloMosaic.Lib.Pipeline.Value
import Idealize.ShloMosaic.Lib.StableHlo.Run

noncomputable section

namespace Cert.SetConv.Launch

open Cert.KernelIdeal Cert.KernelIdeal.Gen Cert.SetConv
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The arrays the region finds -/

/-- The positions as rows: entry (b, 0, n) is context position n of batch element b. -/
theorem rows_at (c : Dev nD) (b : Fin 8) (n : Fin 1024) :
    V m c main_v0 (ix3 b (0 : Fin 1) n) = m ((c : Thread nD τ).loc main_arg0) (ix3 b n (0 : Fin 1)) := by
  have e : (V m c main_v0 : S8x1x1024.Idx → EReal)
      = transpose S8x1x1024 [0, 2, 1] (m ((c : Thread nD τ).loc main_arg0)) transposes_S8x1024x1_S8x1x1024_0_2_1 := by
    dsimp only [V, hostOps0]; after_results
  rw [e]
  exact transpose_apply _ _ _ (ix3 b (0 : Fin 1) n) (ix3 b n (0 : Fin 1))
    (fun a => by match a with | ⟨0, _⟩ => rfl | ⟨1, _⟩ => rfl | ⟨2, _⟩ => rfl)

/-- The channels, transposed: entry (b, c, n) is channel c of context point n. -/
theorem channels_at (c : Dev nD) (b : Fin 8) (k : Fin 9) (n : Fin 1024) :
    V m c main_v4 (ix3 b k n) = chan (m ((c : Thread nD τ).loc main_arg1)) b n k := by
  have e : (V m c main_v4 : S8x9x1024.Idx → EReal)
      = transpose S8x9x1024 [0, 2, 1]
          (concatenate S8x1024x9 2
            [⟨S8x1024x1, broadcastInDim S8x1024x1 ![] bcast_S_S8x1024x1 (constant (F := Ideal) S_ .f32 0x3F800000#32)⟩,
             ⟨S8x1024x8, m ((c : Thread nD τ).loc main_arg1)⟩]
            concatenates_S8x1024x1_S8x1024x8_S8x1024x9_d2)
          transposes_S8x1024x9_S8x9x1024_0_2_1 := by
    dsimp only [V, hostOps0]; after_results
  rw [e]
  refine (transpose_apply _ _ _ (ix3 b k n) (ix3 b n k)
    (fun a => by match a with | ⟨0, _⟩ => rfl | ⟨1, _⟩ => rfl | ⟨2, _⟩ => rfl)).trans ?_
  unfold chan
  by_cases hk : k.val = 0
  · rw [dif_pos hk]
    refine (concatenate_pair_apply_left (s₁ := S8x1024x1) (s₂ := S8x1024x8) (2 : Fin 3) _ _ _ (ix3 b n k) rfl
      (ix3 b n (0 : Fin 1)) (fun a => ?_)).trans ?_
    · match a with
      | ⟨0, _⟩ => rfl
      | ⟨1, _⟩ => rfl
      | ⟨2, _⟩ => exact hk.symm
    · exact broadcastInDim_apply _ _ _ (ix3 b n (0 : Fin 1)) ix0 (fun a => a.elim0)
  · rw [dif_neg hk]
    refine concatenate_pair_apply_right (s₁ := S8x1024x1) (s₂ := S8x1024x8) (2 : Fin 3) _ _ _ (ix3 b n k) rfl rfl
      (ix3 b n (below k hk)) (fun a ha => ?_) ?_
    · match a, ha with
      | ⟨0, _⟩, _ => rfl
      | ⟨1, _⟩, _ => rfl
      | ⟨2, _⟩, ha => exact absurd rfl ha
    · show (k.val - 1) + 1 = k.val
      omega

/-- The log length scales as a row. -/
theorem scales_at (c : Dev nD) (k : Fin 9) :
    V m c main_v5 (ix2 (0 : Fin 1) k) = m ((c : Thread nD τ).loc main_arg3) (ix1 k) := by
  have e : (V m c main_v5 : S1x9.Idx → EReal)
      = shapeCast S1x9 (m ((c : Thread nD τ).loc main_arg3)) shapeCasts_S9_S1x9 := by
    dsimp only [V, hostOps0]; after_results; rfl
  rw [e]
  exact shapeCast_apply _ _ (ix2 (0 : Fin 1) k) (ix1 k)
    (by rw [Shape.rowMajor_val_one, Shape.rowMajor_val_two]; show k.val = 0 * 9 + k.val; omega)

/-- The bias as a row. -/
theorem bias_at (c : Dev nD) (o : Fin 16) :
    V m c main_v6 (ix2 (0 : Fin 1) o) = m ((c : Thread nD τ).loc main_arg5) (ix1 o) := by
  have e : (V m c main_v6 : S1x16.Idx → EReal)
      = shapeCast S1x16 (m ((c : Thread nD τ).loc main_arg5)) shapeCasts_S16_S1x16 := by
    dsimp only [V, hostOps0]; after_results; rfl
  rw [e]
  exact shapeCast_apply _ _ (ix2 (0 : Fin 1) o) (ix1 o)
    (by rw [Shape.rowMajor_val_one, Shape.rowMajor_val_two]; show o.val = 0 * 16 + o.val; omega)

/-! ## Which block each window stages at a grid point -/

/-- The block indices at grid point t = 8·b + k, decided over the 64 points. -/
theorem block_indices : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = t.val % 8 ∧ win0_6.index t (2 : Fin 3) = 0 :=
  (by decide +kernel : ∀ t : Fin grid0.N, _)

end Cert.SetConv.Launch

end
-- ==== Proof.BodyStages.lean ====
/-
  The kernel body of one tile, cut into four stages, each read at an index.

  One grid point handles one batch element and 128 target points. From its loaded blocks — the context positions
  as a row [1,1,1024], the nine channels [1,9,1024], the tile's target positions [1,128,1], the log length scales
  [1,9], the matrix [16,9] and the bias [1,16] — the body computes

    weights  [9,128,1024]  exp( (h · (t_r - x_n)²) · (1 / (e^σ_c · e^σ_c)) )
    sums     [9,128]       Σ_n weights(c,r,n) · channel(c,n)         one batched matrix-vector product
    normed   [9,128]       row 0 kept; rows c ≥ 1 divided by (row 0 + ε)
    linear   [128,16]      Σ_c normed(c,r) · W(o,c)                  a sum over the middle axis of a [128,9,16] product

  The stage functions below are the body's own operations, over variable vectors; the body's payload is their
  composition by unfolding. Each stage is then read at an index built from coordinates, one layout operation (shape
  cast, broadcast, slice, transpose) at a time: a shape cast keeps the row-major position, a broadcast reads
  coordinate 0 on the operand's unit axes, a slice adds its offset, a transpose swaps the coordinates.
-/
import proofs.«100549_j463856468358_2_alg».proof.Proof.Gen.KernelIdeal.Value
import Idealize.ShloMosaic.Lib.ValueIdx
import Idealize.ShloMosaic.Lib.Pipeline.Value
import Idealize.ShloMosaic.PureOps.Ideal.Laws

noncomputable section

open scoped BigOperators

namespace Cert.SetConv.Body

open Cert.KernelIdeal Cert.KernelIdeal.Gen
open Idealize.ShloMosaic Idealize.ShloMosaic.ValueIdx

/-! ## The stages -/

/-- Target position minus context position, [128, 1024]. -/
def tileDiff (v0 : Vec Ideal S1x1x1024 .f32) (v4 : Vec Ideal S1x128x1 .f32) : FVec Ideal S128x1024 .f32 :=
  subf (broadcastTo S128x1024 (shapeCast S128x1 v4 shapeCasts_S1x128x1_S128x1) broadcasts_S128x1_S128x1024)
    (broadcastTo S128x1024 (shapeCast S1x1024 v0 shapeCasts_S1x1x1024_S1x1024) broadcasts_S1x1024_S128x1024)

/-- One over the squared length scale, per channel, [9]. -/
def tileInvScale (v6 : Vec Ideal S1x9 .f32) : FVec Ideal S9 .f32 :=
  divf (broadcast S9 (Scalar.ofBits (F := Ideal) .f32 0x3F800000#32))
    (mulf (Idealize.ShloMosaic.exp (shapeCast S9 v6 shapeCasts_S1x9_S9)) (Idealize.ShloMosaic.exp (shapeCast S9 v6 shapeCasts_S1x9_S9)))

/-- The Gaussian weights of the tile, [9, 128, 1024]. -/
def tileWeights (v0 : Vec Ideal S1x1x1024 .f32) (v4 : Vec Ideal S1x128x1 .f32) (v6 : Vec Ideal S1x9 .f32) :
    FVec Ideal S9x128x1024 .f32 :=
  Idealize.ShloMosaic.exp (mulf
    (broadcastTo S9x128x1024
      (mulf (broadcast S1x128x1024 (Scalar.ofBits (F := Ideal) .f32 0xBF000000#32))
        (shapeCast S1x128x1024 (mulf (tileDiff v0 v4) (tileDiff v0 v4)) shapeCasts_S128x1024_S1x128x1024))
      broadcasts_S1x128x1024_S9x128x1024)
    (broadcastTo S9x128x1024 (shapeCast S9x1x1 (tileInvScale v6) shapeCasts_S9_S9x1x1) broadcasts_S9x1x1_S9x128x1024))

/-- The weighted sums over the context points, [9, 128]: a batched product with the channels as columns. -/
def tileSums (w : FVec Ideal S9x128x1024 .f32) (v2 : Vec Ideal S1x9x1024 .f32) : FVec Ideal S9x128 .f32 :=
  shapeCast S9x128
    (matmul dot_S9x128x1024_S9x1024x1_S9x128x1_2_1_1_2_0_0 none (truncf .bf16 w bitsLt_bf16_f32)
      (shapeCast S9x1024x1 (truncf .bf16 (shapeCast S9x1024 v2 shapeCasts_S1x9x1024_S9x1024) bitsLt_bf16_f32)
        shapeCasts_S9x1024_S9x1024x1)
      (constant (F := Ideal) S9x128x1 .f32 0x00000000#32))
    shapeCasts_S9x128x1_S9x128

/-- Row 0 kept, rows 1 to 8 divided by row 0 plus ε, [9, 128]. -/
def tileNorm (s : FVec Ideal S9x128 .f32) : FVec Ideal S9x128 .f32 :=
  concatenate S9x128 0
    [⟨S1x128, extractStridedSlice S1x128 ![0, 0] s slices_S9x128_o0_0_S1x128⟩,
     ⟨S8x128, divf (extractStridedSlice S8x128 ![1, 0] s slices_S9x128_o1_0_S8x128)
        (broadcastTo S8x128
          (addf (extractStridedSlice S1x128 ![0, 0] s slices_S9x128_o0_0_S1x128)
            (broadcast S1x128 (Scalar.ofBits (F := Ideal) .f32 0x322BCC77#32)))
          broadcasts_S1x128_S8x128)⟩]
    concatenates_S1x128_S8x128_S9x128_d0

/-- The linear layer without its bias, [128, 16]. -/
def tileLinear (q : FVec Ideal S9x128 .f32) (v8 : Vec Ideal S16x9 .f32) : FVec Ideal S128x16 .f32 :=
  multiReduction .add [1] S128x16
    (mulf
      (broadcastTo S128x9x16 (shapeCast S128x9x1 (transpose S128x9 [1, 0] q transposes_S9x128_p1_0_S128x9) shapeCasts_S128x9_S128x9x1)
        broadcasts_S128x9x1_S128x9x16)
      (broadcastTo S128x9x16 (shapeCast S1x9x16 (transpose S9x16 [1, 0] v8 transposes_S16x9_p1_0_S9x16) shapeCasts_S9x16_S1x9x16)
        broadcasts_S1x9x16_S128x9x16))
    0x00000000#32 reduces_S128x9x16_S128x16 (.inl rfl) rfl

/-- The body's [9, 128] payload is the three stages composed. -/
theorem pay3_eq (v0 : Vec Ideal S1x1x1024 .f32) (v2 : Vec Ideal S1x9x1024 .f32) (v4 : Vec Ideal S1x128x1 .f32)
    (v6 : Vec Ideal S1x9 .f32) : k0_pay3 v0 v2 v4 v6 = tileNorm (tileSums (tileWeights v0 v4 v6) v2) := rfl

/-- The block the body leaves is the linear layer of that payload plus the bias. -/
theorem block_eq (P0 : Vec Ideal S1x1x1024 .f32) (P1 : Vec Ideal S1x9x1024 .f32) (P2 : Vec Ideal S1x128x1 .f32)
    (P3 : Vec Ideal S1x9 .f32) (P4 : Vec Ideal S16x9 .f32) (P5 : Vec Ideal S1x16 .f32) (y : S1x128x16.Idx) :
    Cert.KernelIdeal.Value.E6 P0 P1 P2 P3 P4 P5 y
      = tileLinear (k0_pay3 P0 P1 P2 P3) P4 (Cert.KernelIdeal.Value.ix6_0 y) + P5 (Cert.KernelIdeal.Value.ix6_1 y) := rfl

end Cert.SetConv.Body

end
-- ==== Proof.BodyAtIndex.lean ====
/-
  The four stages of the tile body (BodyStages.lean) read at an index.

  Coordinates: c < 9 the channel, r < 128 the target point inside the tile, n < 1024 the context point, o < 16 the
  output channel. Loaded blocks are read at (0, ·, ·): their leading axis has extent one.
-/
import proofs.«100549_j463856468358_2_alg».proof.Proof.BodyStages
import proofs.«100549_j463856468358_2_alg».proof.Proof.SetConvSpec

noncomputable section

open scoped BigOperators

namespace Cert.SetConv.Body

open Cert.KernelIdeal Cert.KernelIdeal.Gen
open Idealize.ShloMosaic Idealize.ShloMosaic.ValueIdx
open Cert.SetConv (below)

/-! ## The weights -/

/-- Target position r minus context position n. -/
theorem tileDiff_at (v0 : Vec Ideal S1x1x1024 .f32) (v4 : Vec Ideal S1x128x1 .f32) (r : Fin 128) (n : Fin 1024) :
    tileDiff v0 v4 (ix2 r n) = v4 (ix3 (0 : Fin 1) r (0 : Fin 1)) - v0 (ix3 (0 : Fin 1) (0 : Fin 1) n) := by
  unfold tileDiff
  rw [subf_apply]
  have e1 : broadcastTo S128x1024 (shapeCast S128x1 v4 shapeCasts_S1x128x1_S128x1) broadcasts_S128x1_S128x1024 (ix2 r n)
      = v4 (ix3 (0 : Fin 1) r (0 : Fin 1)) := by
    refine (broadcastTo_apply _ _ (ix2 r n) (ix2 r (0 : Fin 1)) (fun a => ?_)).trans ?_
    · match a with
      | ⟨0, _⟩ => show r.val = if (128 : Nat) = 1 then 0 else r.val; rw [if_neg (by decide)]
      | ⟨1, _⟩ => show 0 = if (1 : Nat) = 1 then 0 else n.val; rw [if_pos rfl]
    · exact shapeCast_apply _ _ (ix2 r (0 : Fin 1)) (ix3 (0 : Fin 1) r (0 : Fin 1))
        (by rw [Shape.rowMajor_val_three, Shape.rowMajor_val_two]; show (0 * 128 + r.val) * 1 + 0 = r.val * 1 + 0; omega)
  have e2 : broadcastTo S128x1024 (shapeCast S1x1024 v0 shapeCasts_S1x1x1024_S1x1024) broadcasts_S1x1024_S128x1024 (ix2 r n)
      = v0 (ix3 (0 : Fin 1) (0 : Fin 1) n) := by
    refine (broadcastTo_apply _ _ (ix2 r n) (ix2 (0 : Fin 1) n) (fun a => ?_)).trans ?_
    · match a with
      | ⟨0, _⟩ => show 0 = if (1 : Nat) = 1 then 0 else r.val; rw [if_pos rfl]
      | ⟨1, _⟩ => show n.val = if (1024 : Nat) = 1 then 0 else n.val; rw [if_neg (by decide)]
    · exact shapeCast_apply _ _ (ix2 (0 : Fin 1) n) (ix3 (0 : Fin 1) (0 : Fin 1) n)
        (by rw [Shape.rowMajor_val_three, Shape.rowMajor_val_two]; show (0 * 1 + 0) * 1024 + n.val = 0 * 1024 + n.val; omega)
  rw [e1, e2]

/-- One over the squared length scale of channel c. -/
theorem tileInvScale_at (v6 : Vec Ideal S1x9 .f32) (c : Fin 9) :
    tileInvScale v6 (ix1 c)
      = Ideal.div (Ideal.ofBits .f32 0x3F800000#32) (Ideal.exp (v6 (ix2 (0 : Fin 1) c)) * Ideal.exp (v6 (ix2 (0 : Fin 1) c))) := by
  have e : shapeCast S9 v6 shapeCasts_S1x9_S9 (ix1 c) = v6 (ix2 (0 : Fin 1) c) :=
    shapeCast_apply _ _ (ix1 c) (ix2 (0 : Fin 1) c)
      (by rw [Shape.rowMajor_val_two, Shape.rowMajor_val_one]; show 0 * 9 + c.val = c.val; omega)
  show Ideal.div (Ideal.ofBits .f32 0x3F800000#32)
    (Ideal.exp (shapeCast S9 v6 shapeCasts_S1x9_S9 (ix1 c)) * Ideal.exp (shapeCast S9 v6 shapeCasts_S1x9_S9 (ix1 c))) = _
  rw [e]

/-- The weight of context point n at target point r for channel c. -/
theorem tileWeights_at (v0 : Vec Ideal S1x1x1024 .f32) (v4 : Vec Ideal S1x128x1 .f32) (v6 : Vec Ideal S1x9 .f32)
    (c : Fin 9) (r : Fin 128) (n : Fin 1024) :
    tileWeights v0 v4 v6 (ix3 c r n)
      = Ideal.exp ((Ideal.ofBits .f32 0xBF000000#32
            * ((v4 (ix3 (0 : Fin 1) r (0 : Fin 1)) - v0 (ix3 (0 : Fin 1) (0 : Fin 1) n))
              * (v4 (ix3 (0 : Fin 1) r (0 : Fin 1)) - v0 (ix3 (0 : Fin 1) (0 : Fin 1) n))))
          * Ideal.div (Ideal.ofBits .f32 0x3F800000#32)
              (Ideal.exp (v6 (ix2 (0 : Fin 1) c)) * Ideal.exp (v6 (ix2 (0 : Fin 1) c)))) := by
  have e1 : broadcastTo S9x128x1024
      (mulf (broadcast S1x128x1024 (Scalar.ofBits (F := Ideal) .f32 0xBF000000#32))
        (shapeCast S1x128x1024 (mulf (tileDiff v0 v4) (tileDiff v0 v4)) shapeCasts_S128x1024_S1x128x1024))
      broadcasts_S1x128x1024_S9x128x1024 (ix3 c r n)
      = Ideal.ofBits .f32 0xBF000000#32 * (tileDiff v0 v4 (ix2 r n) * tileDiff v0 v4 (ix2 r n)) := by
    refine (broadcastTo_apply _ _ (ix3 c r n) (ix3 (0 : Fin 1) r n) (fun a => ?_)).trans ?_
    · match a with
      | ⟨0, _⟩ => show 0 = if (1 : Nat) = 1 then 0 else c.val; rw [if_pos rfl]
      | ⟨1, _⟩ => show r.val = if (128 : Nat) = 1 then 0 else r.val; rw [if_neg (by decide)]
      | ⟨2, _⟩ => show n.val = if (1024 : Nat) = 1 then 0 else n.val; rw [if_neg (by decide)]
    · rw [mulf_apply]
      have e : shapeCast S1x128x1024 (mulf (tileDiff v0 v4) (tileDiff v0 v4)) shapeCasts_S128x1024_S1x128x1024 (ix3 (0 : Fin 1) r n)
          = mulf (tileDiff v0 v4) (tileDiff v0 v4) (ix2 r n) :=
        shapeCast_apply _ _ (ix3 (0 : Fin 1) r n) (ix2 r n)
          (by rw [Shape.rowMajor_val_two, Shape.rowMajor_val_three]; show r.val * 1024 + n.val = (0 * 128 + r.val) * 1024 + n.val; omega)
      rw [e]
      rfl
  have e2 : broadcastTo S9x128x1024 (shapeCast S9x1x1 (tileInvScale v6) shapeCasts_S9_S9x1x1) broadcasts_S9x1x1_S9x128x1024 (ix3 c r n)
      = tileInvScale v6 (ix1 c) := by
    refine (broadcastTo_apply _ _ (ix3 c r n) (ix3 c (0 : Fin 1) (0 : Fin 1)) (fun a => ?_)).trans ?_
    · match a with
      | ⟨0, _⟩ => show c.val = if (9 : Nat) = 1 then 0 else c.val; rw [if_neg (by decide)]
      | ⟨1, _⟩ => show 0 = if (1 : Nat) = 1 then 0 else r.val; rw [if_pos rfl]
      | ⟨2, _⟩ => show 0 = if (1 : Nat) = 1 then 0 else n.val; rw [if_pos rfl]
    · exact shapeCast_apply _ _ (ix3 c (0 : Fin 1) (0 : Fin 1)) (ix1 c)
        (by rw [Shape.rowMajor_val_one, Shape.rowMajor_val_three]; show c.val = (c.val * 1 + 0) * 1 + 0; omega)
  unfold tileWeights
  show Ideal.exp (_ * _) = _
  rw [e1, e2, tileDiff_at, tileInvScale_at]

/-! ## The sums over the context points -/

/-- The batched product's left operand is read at (c, r, n) and its right operand at (c, n, 0): the channel is the
    batch axis, the context point the contracted one. -/
theorem dot_lhs (j : S9x128x1.Idx) (q : dot_S9x128x1024_S9x1024x1_S9x128x1_2_1_1_2_0_0.contr.Idx) :
    (dot_S9x128x1024_S9x1024x1_S9x128x1_2_1_1_2_0_0.lhsIdx j q 0).val = (j 0).val
    ∧ (dot_S9x128x1024_S9x1024x1_S9x128x1_2_1_1_2_0_0.lhsIdx j q 1).val = (j 1).val
    ∧ (dot_S9x128x1024_S9x1024x1_S9x128x1_2_1_1_2_0_0.lhsIdx j q 2).val = (q ⟨0, by decide⟩).val := by
  refine ⟨?_, ?_, dot_S9x128x1024_S9x1024x1_S9x128x1_2_1_1_2_0_0.lhsIdx_val_of_single rfl j q⟩
  · unfold DotDims.lhsIdx
    rw [dif_pos (show (0 : Fin S9x128x1024.rank) ∈ dot_S9x128x1024_S9x1024x1_S9x128x1_2_1_1_2_0_0.lhsBatch by decide)]
    rfl
  · unfold DotDims.lhsIdx
    rw [dif_neg (show ¬(1 : Fin S9x128x1024.rank) ∈ dot_S9x128x1024_S9x1024x1_S9x128x1_2_1_1_2_0_0.lhsBatch by decide),
      dif_pos (show (1 : Fin S9x128x1024.rank) ∈ dot_S9x128x1024_S9x1024x1_S9x128x1_2_1_1_2_0_0.lhsNonContracting by decide)]
    rfl

theorem dot_rhs (j : S9x128x1.Idx) (q : dot_S9x128x1024_S9x1024x1_S9x128x1_2_1_1_2_0_0.contr.Idx) :
    (dot_S9x128x1024_S9x1024x1_S9x128x1_2_1_1_2_0_0.rhsIdx j q 0).val = (j 0).val
    ∧ (dot_S9x128x1024_S9x1024x1_S9x128x1_2_1_1_2_0_0.rhsIdx j q 1).val = (q ⟨0, by decide⟩).val
    ∧ (dot_S9x128x1024_S9x1024x1_S9x128x1_2_1_1_2_0_0.rhsIdx j q 2).val = (j 2).val := by
  refine ⟨?_, dot_S9x128x1024_S9x1024x1_S9x128x1_2_1_1_2_0_0.rhsIdx_val_of_single rfl j q, ?_⟩
  · unfold DotDims.rhsIdx
    rw [dif_pos (show (0 : Fin S9x1024x1.rank) ∈ dot_S9x128x1024_S9x1024x1_S9x128x1_2_1_1_2_0_0.rhsBatch by decide)]
    rfl
  · unfold DotDims.rhsIdx
    rw [dif_neg (show ¬(2 : Fin S9x1024x1.rank) ∈ dot_S9x128x1024_S9x1024x1_S9x128x1_2_1_1_2_0_0.rhsBatch by decide),
      dif_pos (show (2 : Fin S9x1024x1.rank) ∈ dot_S9x128x1024_S9x1024x1_S9x128x1_2_1_1_2_0_0.rhsNonContracting by decide)]
    rfl

/-- Row (c, r) of the sums: the weights of row (c, r) against channel c of the context points. The change of
    format of both operands is the identity on extended reals, and the accumulator starts at zero. -/
theorem tileSums_at (w : FVec Ideal S9x128x1024 .f32) (v2 : Vec Ideal S1x9x1024 .f32) (c : Fin 9) (r : Fin 128) :
    tileSums w v2 (ix2 c r) = ∑ n : Fin 1024, w (ix3 c r n) * v2 (ix3 (0 : Fin 1) c n) := by
  unfold tileSums
  refine (shapeCast_apply _ _ (ix2 c r) (ix3 c r (0 : Fin 1))
    (by rw [Shape.rowMajor_val_three, Shape.rowMajor_val_two]; show (c.val * 128 + r.val) * 1 + 0 = c.val * 128 + r.val; omega)).trans ?_
  refine (Ideal.matmul_constant_zero_apply dot_S9x128x1024_S9x1024x1_S9x128x1_2_1_1_2_0_0 none _ _ (ix3 c r (0 : Fin 1))).trans ?_
  refine (Equiv.sum_comp (contrEquiv1 dot_S9x128x1024_S9x1024x1_S9x128x1_2_1_1_2_0_0 1024 rfl rfl).symm _).symm.trans ?_
  refine Finset.sum_congr rfl fun k _ => ?_
  have hk := contrEquiv1_symm_val dot_S9x128x1024_S9x1024x1_S9x128x1_2_1_1_2_0_0 1024 rfl rfl k
  obtain ⟨l0, l1, l2⟩ := dot_lhs (ix3 c r (0 : Fin 1)) ((contrEquiv1 dot_S9x128x1024_S9x1024x1_S9x128x1_2_1_1_2_0_0 1024 rfl rfl).symm k)
  obtain ⟨r0, r1, r2⟩ := dot_rhs (ix3 c r (0 : Fin 1)) ((contrEquiv1 dot_S9x128x1024_S9x1024x1_S9x128x1_2_1_1_2_0_0 1024 rfl rfl).symm k)
  have el : dot_S9x128x1024_S9x1024x1_S9x128x1_2_1_1_2_0_0.lhsIdx (ix3 c r (0 : Fin 1))
      ((contrEquiv1 dot_S9x128x1024_S9x1024x1_S9x128x1_2_1_1_2_0_0 1024 rfl rfl).symm k) = ix3 c r k :=
    funext fun a => Fin.ext (by
      match a with
      | ⟨0, _⟩ => exact l0
      | ⟨1, _⟩ => exact l1
      | ⟨2, _⟩ => exact l2.trans hk)
  have er : dot_S9x128x1024_S9x1024x1_S9x128x1_2_1_1_2_0_0.rhsIdx (ix3 c r (0 : Fin 1))
      ((contrEquiv1 dot_S9x128x1024_S9x1024x1_S9x128x1_2_1_1_2_0_0 1024 rfl rfl).symm k) = ix3 c k (0 : Fin 1) :=
    funext fun a => Fin.ext (by
      match a with
      | ⟨0, _⟩ => exact r0
      | ⟨1, _⟩ => exact r1.trans hk
      | ⟨2, _⟩ => exact r2)
  rw [el, er]
  have e2 : (shapeCast S9x1024x1 (truncf (F := Ideal) .bf16 (shapeCast S9x1024 v2 shapeCasts_S1x9x1024_S9x1024) bitsLt_bf16_f32)
      shapeCasts_S9x1024_S9x1024x1 (ix3 c k (0 : Fin 1)) : EReal) = v2 (ix3 (0 : Fin 1) c k) := by
    refine (shapeCast_apply _ _ (ix3 c k (0 : Fin 1)) (ix2 c k)
      (by rw [Shape.rowMajor_val_two, Shape.rowMajor_val_three]; show c.val * 1024 + k.val = (c.val * 1024 + k.val) * 1 + 0; omega)).trans ?_
    exact shapeCast_apply v2 shapeCasts_S1x9x1024_S9x1024 (ix2 c k) (ix3 (0 : Fin 1) c k)
      (by rw [Shape.rowMajor_val_three, Shape.rowMajor_val_two]; show (0 * 9 + c.val) * 1024 + k.val = c.val * 1024 + k.val; omega)
  exact congrArg (fun z : EReal => w (ix3 c r k) * z) e2

/-! ## The normalization -/

/-- Row 0 is kept; a row c ≥ 1 is divided by row 0 plus ε. -/
theorem tileNorm_at (s : FVec Ideal S9x128 .f32) (c : Fin 9) (r : Fin 128) :
    tileNorm s (ix2 c r)
      = if c.val = 0 then s (ix2 (0 : Fin 9) r)
        else Ideal.div (s (ix2 c r)) (s (ix2 (0 : Fin 9) r) + Ideal.ofBits .f32 0x322BCC77#32) := by
  have row0 : ∀ z : Fin 1, extractStridedSlice S1x128 ![0, 0] s slices_S9x128_o0_0_S1x128 (ix2 z r) = s (ix2 (0 : Fin 9) r) := fun z =>
    extractStridedSlice_apply _ s _ (ix2 z r) (ix2 (0 : Fin 9) r) (fun a => by
      match a with
      | ⟨0, _⟩ => show 0 = 0 + z.val; omega
      | ⟨1, _⟩ => show r.val = 0 + r.val; omega)
  unfold tileNorm
  by_cases hc : c.val = 0
  · rw [if_pos hc]
    refine (concatenate_pair_apply_left (s₁ := S1x128) (s₂ := S8x128) (0 : Fin 2) _ _ _ (ix2 c r) rfl (ix2 (0 : Fin 1) r)
      (fun a => ?_)).trans (row0 0)
    match a with
    | ⟨0, _⟩ => exact hc.symm
    | ⟨1, _⟩ => rfl
  · rw [if_neg hc]
    refine (concatenate_pair_apply_right (s₁ := S1x128) (s₂ := S8x128) (0 : Fin 2) _ _ _ (ix2 c r) rfl rfl (ix2 (below c hc) r)
      (fun a ha => ?_) ?_).trans ?_
    · match a, ha with
      | ⟨0, _⟩, ha => exact absurd rfl ha
      | ⟨1, _⟩, _ => rfl
    · show (c.val - 1) + 1 = c.val
      omega
    · rw [divf_apply]
      have e1 : extractStridedSlice S8x128 ![1, 0] s slices_S9x128_o1_0_S8x128 (ix2 (below c hc) r) = s (ix2 c r) :=
        extractStridedSlice_apply _ s _ (ix2 (below c hc) r) (ix2 c r) (fun a => by
          match a with
          | ⟨0, _⟩ => show c.val = 1 + (c.val - 1); omega
          | ⟨1, _⟩ => show r.val = 0 + r.val; omega)
      have e2 : broadcastTo S8x128
          (addf (extractStridedSlice S1x128 ![0, 0] s slices_S9x128_o0_0_S1x128)
            (broadcast S1x128 (Scalar.ofBits (F := Ideal) .f32 0x322BCC77#32)))
          broadcasts_S1x128_S8x128 (ix2 (below c hc) r)
          = s (ix2 (0 : Fin 9) r) + Ideal.ofBits .f32 0x322BCC77#32 := by
        refine (broadcastTo_apply _ _ (ix2 (below c hc) r) (ix2 (0 : Fin 1) r) (fun a => ?_)).trans ?_
        · match a with
          | ⟨0, _⟩ => show 0 = if (1 : Nat) = 1 then 0 else c.val - 1; rw [if_pos rfl]
          | ⟨1, _⟩ => show r.val = if (128 : Nat) = 1 then 0 else r.val; rw [if_neg (by decide)]
        · rw [addf_apply, row0 0]
          rfl
      rw [e1, e2]

/-! ## The linear layer -/

/-- Entry (r, o) of the linear layer: the nine normalized channels of target point r against row o of the matrix. -/
theorem tileLinear_at (q : FVec Ideal S9x128 .f32) (v8 : Vec Ideal S16x9 .f32) (r : Fin 128) (o : Fin 16) :
    tileLinear q v8 (ix2 r o) = ∑ c : Fin 9, q (ix2 c r) * v8 (ix2 o c) := by
  unfold tileLinear
  refine (Ideal.multiReduction_add_single _ _ _ _ _ (ix2 r o)).trans ?_
  show (∑ k : Fin 9, _) = _
  refine Finset.sum_congr rfl fun k _ => ?_
  have e : reduces_S128x9x16_S128x16.lift (ix2 r o) k = ix3 r k o :=
    funext fun a => Fin.ext (by match a with | ⟨0, _⟩ => rfl | ⟨1, _⟩ => rfl | ⟨2, _⟩ => rfl)
  rw [e, mulf_apply]
  have e1 : broadcastTo S128x9x16 (shapeCast S128x9x1 (transpose S128x9 [1, 0] q transposes_S9x128_p1_0_S128x9) shapeCasts_S128x9_S128x9x1)
      broadcasts_S128x9x1_S128x9x16 (ix3 r k o) = q (ix2 k r) := by
    refine (broadcastTo_apply _ _ (ix3 r k o) (ix3 r k (0 : Fin 1)) (fun a => ?_)).trans ?_
    · match a with
      | ⟨0, _⟩ => show r.val = if (128 : Nat) = 1 then 0 else r.val; rw [if_neg (by decide)]
      | ⟨1, _⟩ => show k.val = if (9 : Nat) = 1 then 0 else k.val; rw [if_neg (by decide)]
      | ⟨2, _⟩ => show 0 = if (1 : Nat) = 1 then 0 else o.val; rw [if_pos rfl]
    · refine (shapeCast_apply _ _ (ix3 r k (0 : Fin 1)) (ix2 r k)
        (by rw [Shape.rowMajor_val_two, Shape.rowMajor_val_three]; show r.val * 9 + k.val = (r.val * 9 + k.val) * 1 + 0; omega)).trans ?_
      exact transpose_apply _ q _ (ix2 r k) (ix2 k r) (fun b => by match b with | ⟨0, _⟩ => rfl | ⟨1, _⟩ => rfl)
  have e2 : broadcastTo S128x9x16 (shapeCast S1x9x16 (transpose S9x16 [1, 0] v8 transposes_S16x9_p1_0_S9x16) shapeCasts_S9x16_S1x9x16)
      broadcasts_S1x9x16_S128x9x16 (ix3 r k o) = v8 (ix2 o k) := by
    refine (broadcastTo_apply _ _ (ix3 r k o) (ix3 (0 : Fin 1) k o) (fun a => ?_)).trans ?_
    · match a with
      | ⟨0, _⟩ => show 0 = if (1 : Nat) = 1 then 0 else r.val; rw [if_pos rfl]
      | ⟨1, _⟩ => show k.val = if (9 : Nat) = 1 then 0 else k.val; rw [if_neg (by decide)]
      | ⟨2, _⟩ => show o.val = if (16 : Nat) = 1 then 0 else o.val; rw [if_neg (by decide)]
    · refine (shapeCast_apply _ _ (ix3 (0 : Fin 1) k o) (ix2 k o)
        (by rw [Shape.rowMajor_val_two, Shape.rowMajor_val_three]; show k.val * 16 + o.val = (0 * 9 + k.val) * 16 + o.val; omega)).trans ?_
      exact transpose_apply _ v8 _ (ix2 k o) (ix2 o k) (fun b => by match b with | ⟨0, _⟩ => rfl | ⟨1, _⟩ => rfl)
  rw [e1, e2]

end Cert.SetConv.Body

end
-- ==== Proof.RbfExponent.lean ====
/-
  The exponent of a Gaussian (radial basis) weight, written two ways.

  With `h` any extended real (the factor -1/2 of the programs, never evaluated), a target position `t`, a context
  position `x` and a log length scale `σ`, all real, and `s = e^σ · e^σ` the squared length scale:

      (h · (t - x)²) · (1 / s)   =   (h · (x - t)²) / s

  The left side multiplies by a reciprocal taken once per channel; the right side divides. The two squares agree
  because (t - x)² = (x - t)² over the reals, and dividing by the nonzero real `s` is multiplying by `1/s` on every
  extended real. Both facts need the three arguments to be real numbers: this is where the finiteness of the inputs
  is used. The quotient is `Ideal.div`, the exact quotient of the extended reals with its conventions at zero.
-/
import Idealize.ShloMosaic.PureOps.Ideal
import Idealize.ShloMosaic.PureOps.IdealRules

noncomputable section

namespace Cert.SetConv

open Idealize.ShloMosaic

/-- The f32 pattern of 1.0 denotes the real number one. -/
theorem one_f32 : Ideal.ofBits .f32 0x3F800000#32 = 1 := IdealRules.sign_bit.ideal_onePat .f32

/-- The squared length scale of a real log length scale is a nonzero real. -/
theorem sq_scale_coe (σ : ℝ) :
    Ideal.exp (σ : EReal) * Ideal.exp (σ : EReal) = ((Real.exp σ * Real.exp σ : ℝ) : EReal) := by
  rw [Ideal.exp_coe, ← EReal.coe_mul]

theorem sq_scale_ne_zero (σ : ℝ) : Real.exp σ * Real.exp σ ≠ 0 :=
  mul_ne_zero (Real.exp_ne_zero σ) (Real.exp_ne_zero σ)

/-- The two ways of writing the exponent agree at real positions and a real log length scale. -/
theorem exponent_eq (h : EReal) (t x σ : ℝ) :
    (h * (((t : EReal) - (x : EReal)) * ((t : EReal) - (x : EReal))))
        * Ideal.div (Ideal.ofBits .f32 0x3F800000#32) (Ideal.exp (σ : EReal) * Ideal.exp (σ : EReal))
      = Ideal.div (h * (((x : EReal) - (t : EReal)) * ((x : EReal) - (t : EReal))))
          (Ideal.exp (σ : EReal) * Ideal.exp (σ : EReal)) := by
  rw [sq_scale_coe, Ideal.div_coe (sq_scale_ne_zero σ), Ideal.div_coe (sq_scale_ne_zero σ), one_f32, one_mul]
  have e : ((t : EReal) - (x : EReal)) * ((t : EReal) - (x : EReal))
      = ((x : EReal) - (t : EReal)) * ((x : EReal) - (t : EReal)) := by
    rw [← EReal.coe_sub, ← EReal.coe_sub, ← EReal.coe_mul, ← EReal.coe_mul]
    congr 1
    ring
  rw [e]

end Cert.SetConv

end
-- ==== Proof.TileIsSpec.lean ====
/-
  One tile of the kernel computes the specification's entries.

  Suppose the loaded blocks are what the launch stages for batch element b and a tile whose row r is target point
  `row r`: the context positions of b, the nine channels of b (ones, then the features), the tile's target positions,
  the log length scales, the matrix and the bias. Then entry (r, o) of the block the body leaves is the
  specification's result at (b, row r, o), provided the positions and log length scales are real numbers.

  The body's weight is  exp((h · (t - x)²) · (1/s))  where the specification has  exp((h · (x - t)²) / s):  equal at
  real arguments (RbfExponent.lean). The body multiplies weight by channel where the specification multiplies channel
  by weight. Everything after the sums — the division by density plus ε, the contraction with W, the bias — is the
  same expression on both sides.
-/
import proofs.«100549_j463856468358_2_alg».proof.Proof.BodyAtIndex
import proofs.«100549_j463856468358_2_alg».proof.Proof.SetConvSpec
import proofs.«100549_j463856468358_2_alg».proof.Proof.RbfExponent

noncomputable section

open scoped BigOperators

namespace Cert.SetConv.Body

open Cert.KernelIdeal Cert.KernelIdeal.Gen Cert.SetConv
open Idealize.ShloMosaic Idealize.ShloMosaic.ValueIdx

theorem tile_entry (P0 : Vec Ideal S1x1x1024 .f32) (P1 : Vec Ideal S1x9x1024 .f32) (P2 : Vec Ideal S1x128x1 .f32)
    (P3 : Vec Ideal S1x9 .f32) (P4 : Vec Ideal S16x9 .f32) (P5 : Vec Ideal S1x16 .f32)
    (x0 : PosArr) (x1 : FeatArr) (x2 : PosArr) (x3 : ScaleArr) (x4 : MatArr) (x5 : BiasArr)
    (b : Fin 8) (row : Fin 128 → Fin 1024)
    (h0 : ∀ n : Fin 1024, P0 (ix3 (0 : Fin 1) (0 : Fin 1) n) = x0 (ix3 b n (0 : Fin 1)))
    (h1 : ∀ (c : Fin 9) (n : Fin 1024), P1 (ix3 (0 : Fin 1) c n) = chan x1 b n c)
    (h2 : ∀ r : Fin 128, P2 (ix3 (0 : Fin 1) r (0 : Fin 1)) = x2 (ix3 b (row r) (0 : Fin 1)))
    (h3 : ∀ c : Fin 9, P3 (ix2 (0 : Fin 1) c) = x3 (ix1 c))
    (h4 : ∀ (o : Fin 16) (c : Fin 9), P4 (ix2 o c) = x4 (ix2 o c))
    (h5 : ∀ o : Fin 16, P5 (ix2 (0 : Fin 1) o) = x5 (ix1 o))
    (real0 : ∀ i, ∃ v : ℝ, x0 i = (v : EReal)) (real2 : ∀ i, ∃ v : ℝ, x2 i = (v : EReal))
    (real3 : ∀ i, ∃ v : ℝ, x3 i = (v : EReal))
    (r : Fin 128) (o : Fin 16) :
    Cert.KernelIdeal.Value.E6 P0 P1 P2 P3 P4 P5 (ix3 (0 : Fin 1) r o) = resultAt x0 x1 x2 x3 x4 x5 b (row r) o := by
  -- the sums of the tile are the specification's sums
  have hs : ∀ c : Fin 9, tileSums (tileWeights P0 P2 P3) P1 (ix2 c r) = summed x0 x1 x2 x3 b (row r) c := fun c => by
    rw [tileSums_at]
    unfold summed
    refine Finset.sum_congr rfl fun n _ => ?_
    rw [tileWeights_at, h0, h1, h2, h3, mul_comm]
    refine congrArg (chan x1 b n c * ·) ?_
    unfold weight
    obtain ⟨tv, ht⟩ := real2 (ix3 b (row r) (0 : Fin 1))
    obtain ⟨xv, hx⟩ := real0 (ix3 b n (0 : Fin 1))
    obtain ⟨sv, hσ⟩ := real3 (ix1 c)
    rw [ht, hx, hσ, exponent_eq]
  have i0 : Cert.KernelIdeal.Value.ix6_0 (ix3 (0 : Fin 1) r o) = ix2 r o :=
    funext fun a => by match a with | ⟨0, _⟩ => rfl | ⟨1, _⟩ => rfl
  have i1 : Cert.KernelIdeal.Value.ix6_1 (ix3 (0 : Fin 1) r o) = ix2 (0 : Fin 1) o :=
    funext fun a => by match a with | ⟨0, _⟩ => rfl | ⟨1, _⟩ => rfl
  rw [block_eq, i0, i1, tileLinear_at, h5]
  unfold resultAt
  refine congrArg (· + x5 (ix1 o)) (Finset.sum_congr rfl fun c _ => ?_)
  rw [h4, pay3_eq, tileNorm_at, hs c, hs (0 : Fin 9)]
  rfl

end Cert.SetConv.Body

end
-- ==== Proof.KernelIsSpec.lean ====
/-
  The kernel's result array is the specification's function of the arguments.

  Grid point t = 8·b + k writes back the block of rows 128·k … 128·k+127 of batch element b, all 16 output channels.
  By TileIsSpec.lean the block the body leaves there is the specification read through that block, given what the
  point's input blocks hold (TileInputs.lean) and given real positions and log length scales. The 64 blocks tile the
  [8,1024,16] result: entry (b, m, o) lies in the block of point 8·b + m/128. So after the run the whole array is the
  specification's result.
-/
import proofs.«100549_j463856468358_2_alg».proof.Proof.TileInputs
import proofs.«100549_j463856468358_2_alg».proof.Proof.TileIsSpec

noncomputable section

namespace Cert.SetConv.Launch

open Cert.KernelIdeal Cert.KernelIdeal.Gen Cert.SetConv Cert.SetConv.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

theorem point_lt (t : Fin cfg0.N) : t.val < 64 := Nat.lt_of_lt_of_eq t.isLt N_0

/-- The batch element of grid point t. -/
abbrev batchOf (t : Fin cfg0.N) : Fin 8 := ⟨t.val / 8, by have := point_lt t; omega⟩
/-- The target point that row r of grid point t's tile is. -/
abbrev tileRow (t : Fin cfg0.N) (r : Fin 128) : Fin 1024 := ⟨t.val % 8 * 128 + r.val, by have := r.isLt; omega⟩

/-- The specification at this core's arguments. -/
abbrev spec (c : Dev nD) : OutArr :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The input blocks of a grid point -/

theorem block0 (c : Dev nD) (t : Fin cfg0.N) (n : Fin 1024) :
    iblk m c 0 t (ix3 (0 : Fin 1) (0 : Fin 1) n) = m ((c : Thread nD τ).loc main_arg0) (ix3 (batchOf t) n (0 : Fin 1)) := by
  show V m c main_v0 (((cfg0.win 0).blk t).view.emb (ix3 (0 : Fin 1) (0 : Fin 1) n)) = _
  have e : ((cfg0.win 0).blk t).view.emb (ix3 (0 : Fin 1) (0 : Fin 1) n) = ix3 (batchOf t) (0 : Fin 1) n :=
    funext fun a => Fin.ext (by
      obtain ⟨f0, f1, f2, -⟩ := block_indices t
      match a with
      | ⟨0, _⟩ => show win0_0.index t (0 : Fin 3) * 1 + 1 * 0 = t.val / 8; omega
      | ⟨1, _⟩ => show win0_0.index t (1 : Fin 3) * 1 + 1 * 0 = 0; omega
      | ⟨2, _⟩ => show win0_0.index t (2 : Fin 3) * 1024 + 1 * n.val = n.val; omega)
  rw [e, rows_at]

theorem block1 (c : Dev nD) (t : Fin cfg0.N) (k : Fin 9) (n : Fin 1024) :
    iblk m c 1 t (ix3 (0 : Fin 1) k n) = chan (m ((c : Thread nD τ).loc main_arg1)) (batchOf t) n k := by
  show V m c main_v4 (((cfg0.win 1).blk t).view.emb (ix3 (0 : Fin 1) k n)) = _
  have e : ((cfg0.win 1).blk t).view.emb (ix3 (0 : Fin 1) k n) = ix3 (batchOf t) k n :=
    funext fun a => Fin.ext (by
      obtain ⟨-, -, -, f0, f1, f2, -⟩ := block_indices t
      match a with
      | ⟨0, _⟩ => show win0_1.index t (0 : Fin 3) * 1 + 1 * 0 = t.val / 8; omega
      | ⟨1, _⟩ => show win0_1.index t (1 : Fin 3) * 9 + 1 * k.val = k.val; omega
      | ⟨2, _⟩ => show win0_1.index t (2 : Fin 3) * 1024 + 1 * n.val = n.val; omega)
  rw [e, channels_at]

theorem block2 (c : Dev nD) (t : Fin cfg0.N) (r : Fin 128) :
    iblk m c 2 t (ix3 (0 : Fin 1) r (0 : Fin 1))
      = m ((c : Thread nD τ).loc main_arg2) (ix3 (batchOf t) (tileRow t r) (0 : Fin 1)) := by
  show V m c main_arg2 (((cfg0.win 2).blk t).view.emb (ix3 (0 : Fin 1) r (0 : Fin 1))) = _
  have e : ((cfg0.win 2).blk t).view.emb (ix3 (0 : Fin 1) r (0 : Fin 1)) = ix3 (batchOf t) (tileRow t r) (0 : Fin 1) :=
    funext fun a => Fin.ext (by
      obtain ⟨-, -, -, -, -, -, f0, f1, f2, -⟩ := block_indices t
      match a with
      | ⟨0, _⟩ => show win0_2.index t (0 : Fin 3) * 1 + 1 * 0 = t.val / 8; omega
      | ⟨1, _⟩ => show win0_2.index t (1 : Fin 3) * 128 + 1 * r.val = t.val % 8 * 128 + r.val; omega
      | ⟨2, _⟩ => show win0_2.index t (2 : Fin 3) * 1 + 1 * 0 = 0; omega)
  rw [e, V_main_arg2]

theorem block3 (c : Dev nD) (t : Fin cfg0.N) (k : Fin 9) :
    iblk m c 3 t (ix2 (0 : Fin 1) k) = m ((c : Thread nD τ).loc main_arg3) (ix1 k) := by
  show V m c main_v5 (((cfg0.win 3).blk t).view.emb (ix2 (0 : Fin 1) k)) = _
  have e : ((cfg0.win 3).blk t).view.emb (ix2 (0 : Fin 1) k) = ix2 (0 : Fin 1) k :=
    funext fun a => Fin.ext (by
      obtain ⟨-, -, -, -, -, -, -, -, -, f0, f1, -⟩ := block_indices t
      match a with
      | ⟨0, _⟩ => show win0_3.index t (0 : Fin 2) * 1 + 1 * 0 = 0; omega
      | ⟨1, _⟩ => show win0_3.index t (1 : Fin 2) * 9 + 1 * k.val = k.val; omega)
  rw [e, scales_at]

theorem block4 (c : Dev nD) (t : Fin cfg0.N) (o : Fin 16) (k : Fin 9) :
    iblk m c 4 t (ix2 o k) = m ((c : Thread nD τ).loc main_arg4) (ix2 o k) := by
  show V m c main_arg4 (((cfg0.win 4).blk t).view.emb (ix2 o k)) = _
  have e : ((cfg0.win 4).blk t).view.emb (ix2 o k) = ix2 o k :=
    funext fun a => Fin.ext (by
      obtain ⟨-, -, -, -, -, -, -, -, -, -, -, f0, f1, -⟩ := block_indices t
      match a with
      | ⟨0, _⟩ => show win0_4.index t (0 : Fin 2) * 16 + 1 * o.val = o.val; omega
      | ⟨1, _⟩ => show win0_4.index t (1 : Fin 2) * 9 + 1 * k.val = k.val; omega)
  rw [e, V_main_arg4]

theorem block5 (c : Dev nD) (t : Fin cfg0.N) (o : Fin 16) :
    iblk m c 5 t (ix2 (0 : Fin 1) o) = m ((c : Thread nD τ).loc main_arg5) (ix1 o) := by
  show V m c main_v6 (((cfg0.win 5).blk t).view.emb (ix2 (0 : Fin 1) o)) = _
  have e : ((cfg0.win 5).blk t).view.emb (ix2 (0 : Fin 1) o) = ix2 (0 : Fin 1) o :=
    funext fun a => Fin.ext (by
      obtain ⟨-, -, -, -, -, -, -, -, -, -, -, -, -, f0, f1, -⟩ := block_indices t
      match a with
      | ⟨0, _⟩ => show win0_5.index t (0 : Fin 2) * 1 + 1 * 0 = 0; omega
      | ⟨1, _⟩ => show win0_5.index t (1 : Fin 2) * 16 + 1 * o.val = o.val; omega)
  rw [e, bias_at]

/-! ## What a grid point writes back -/

/-- Grid point t writes back the specification's block t, when the positions and log length scales are real. -/
theorem flushed_is_spec (c : Dev nD) (t : Fin cfg0.N)
    (real0 : ∀ i, ∃ v : ℝ, m ((c : Thread nD τ).loc main_arg0) i = (v : EReal))
    (real2 : ∀ i, ∃ v : ℝ, m ((c : Thread nD τ).loc main_arg2) i = (v : EReal))
    (real3 : ∀ i, ∃ v : ℝ, m ((c : Thread nD τ).loc main_arg3) i = (v : EReal)) :
    (dats m 0 c).flushed 6 t = ((cfg0.win 6).blk t).view.read (Elt Ideal) (spec m c) := by
  rw [Cert.KernelIdeal.Value.flushed6]
  unfold out0_6
  simp only [View.ld_unit_zero (S := S1x1x1024) zero3, View.ld_unit_zero (S := S1x9x1024) zero3,
    View.ld_unit_zero (S := S1x128x1) zero3, View.ld_unit_zero (S := S1x9) zero2, View.ld_unit_zero (S := S16x9) zero2,
    View.ld_unit_zero (S := S1x16) zero2]
  funext y
  obtain ⟨z, r, o, rfl⟩ : ∃ (z : Fin 1) (r : Fin 128) (o : Fin 16), y = ix3 z r o := ⟨y 0, y 1, y 2, eq_ix3 y⟩
  obtain rfl : z = 0 := Subsingleton.elim _ _
  show _ = spec m c (((cfg0.win 6).blk t).view.emb (ix3 (0 : Fin 1) r o))
  have e : ((cfg0.win 6).blk t).view.emb (ix3 (0 : Fin 1) r o) = ix3 (batchOf t) (tileRow t r) o :=
    funext fun a => Fin.ext (by
      obtain ⟨-, -, -, -, -, -, -, -, -, -, -, -, -, -, -, f0, f1, f2⟩ := block_indices t
      match a with
      | ⟨0, _⟩ => show win0_6.index t (0 : Fin 3) * 1 + 1 * 0 = t.val / 8; omega
      | ⟨1, _⟩ => show win0_6.index t (1 : Fin 3) * 128 + 1 * r.val = t.val % 8 * 128 + r.val; omega
      | ⟨2, _⟩ => show win0_6.index t (2 : Fin 3) * 16 + 1 * o.val = o.val; omega)
  rw [e]
  show _ = resultAt (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (batchOf t) (tileRow t r) o
  refine (Cert.KernelIdeal.Value.canon6_eq (iblk m c 0 t) (iblk m c 1 t) (iblk m c 2 t) (iblk m c 3 t) (iblk m c 4 t)
    (iblk m c 5 t) (ix3 (0 : Fin 1) r o)).trans ?_
  exact tile_entry (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (batchOf t) (tileRow t) (block0 m c t) (block1 m c t) (block2 m c t) (block3 m c t) (block4 m c t) (block5 m c t)
    real0 real2 real3 r o

/-! ## The blocks tile the result -/

/-- An entry of the result is in grid point t's block iff each coordinate is in the block's range on its axis. -/
theorem mem_block (t : Fin cfg0.N) (i : S8x1024x16.Idx) :
    i ∈ ((cfg0.win 6).blk t).view.set ↔ ∀ a : Fin 3, win0_6.index t a * S1x128x16.size a ≤ (i a).val
      ∧ (i a).val < win0_6.index t a * S1x128x16.size a + S1x128x16.size a := by
  show i ∈ ((View.whole main_v7).slice (win0_6.rect t)).set ↔ _
  rw [View.set_slice_whole, Rect.mem_set_unit]
  exact Iff.rfl

/-- Entry (b, m, o) is in the block of grid point 8·b + m/128. -/
theorem covered (i : S8x1024x16.Idx) :
    ∃ t : Fin cfg0.N, (cfg0.win 6).flush t = true ∧ i ∈ ((cfg0.win 6).blk t).view.set := by
  have h0 : (i 0).val < 8 := (i 0).isLt
  have h1 : (i 1).val < 1024 := (i 1).isLt
  have h2 : (i 2).val < 16 := (i 2).isLt
  obtain ⟨t, ht⟩ : ∃ t : Fin cfg0.N, t.val = (i 0).val * 8 + (i 1).val / 128 :=
    ⟨⟨(i 0).val * 8 + (i 1).val / 128, by rw [show cfg0.N = 64 from N_0]; omega⟩, rfl⟩
  refine ⟨t, flush0_6 t, ?_⟩
  rw [mem_block]
  obtain ⟨-, -, -, -, -, -, -, -, -, -, -, -, -, -, -, f0, f1, f2⟩ := block_indices t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 16 ≤ (i 2).val ∧ (i 2).val < win0_6.index t (2 : Fin 3) * 16 + 16; omega

/-! ## The run -/

/-- After the run the result array is the specification's function of the arguments. -/
theorem final_is_spec (c : Dev nD)
    (real0 : ∀ i, ∃ v : ℝ, m ((c : Thread nD τ).loc main_arg0) i = (v : EReal))
    (real2 : ∀ i, ∃ v : ℝ, m ((c : Thread nD τ).loc main_arg2) i = (v : EReal))
    (real3 : ∀ i, ∃ v : ℝ, m ((c : Thread nD τ).loc main_arg3) i = (v : EReal)) :
    (dats m 0 c).arrAt 6 cfg0.N = spec m c :=
  (dats m 0 c).arrAt_eq_of_cover 6 (spec m c) (fun t _ => flushed_is_spec m c t real0 real2 real3) covered

/-- The kernel's run, posted at the specification: it terminates without a fault, the result is the specification's
    function of the arguments and the arguments are unchanged. -/
theorem run
    (real : ∀ c : Dev nD, (∀ i, ∃ v : ℝ, m ((c : Thread nD τ).loc main_arg0) i = (v : EReal))
      ∧ (∀ i, ∃ v : ℝ, m ((c : Thread nD τ).loc main_arg2) i = (v : EReal))
      ∧ (∀ i, ∃ v : ℝ, m ((c : Thread nD τ).loc main_arg3) i = (v : EReal))) :
    θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans (final_is_spec m c (real c).1 (real c).2.1 (real c).2.2), (h c).2⟩)
    (Cert.KernelIdeal.Value.run_blocks m ρ)

end Cert.SetConv.Launch

end
-- ==== Proof.ReferenceIsSpec.lean ====
/-
  The reference program's result is the set convolution of SetConvSpec.lean, entry by entry.

  The reference builds the full [8, 1024, 1024, 9] tensor of Gaussian weights — axis 1 the context point n, axis 2
  the target point m, axis 3 the channel c — multiplies it by the channels broadcast along m, sums over n, divides
  the channels c ≥ 1 by the density channel plus ε, and contracts the nine channels against the matrix W. Each stage
  below reads one of these tensors at an index built from coordinates and identifies it with the specification's
  function of the same name; the two concatenations (the density channel of ones put in front of the features, and
  the density put in front of the normalized channels) are read by splitting on whether the channel is 0.
-/
import proofs.«100549_j463856468358_2_alg».proof.Proof.Gen.ReferenceIdeal.Read
import proofs.«100549_j463856468358_2_alg».proof.Proof.SetConvSpec

noncomputable section

open scoped BigOperators

namespace Cert.SetConv.Ref

open Cert.ReferenceIdeal Cert.ReferenceIdeal.Read Cert.SetConv
open Idealize.ShloMosaic Idealize.ShloMosaic.ValueIdx

/-- The weight tensor at (b, n, m, c). -/
theorem weight_read (x0 x2 : PosArr) (x3 : ScaleArr) (b : Fin 8) (n m : Fin 1024) (c : Fin 9) :
    val_main_v14 (F := Ideal) x0 x2 x3 (ix4 b n m c) = weight x0 x2 x3 b n m c := by
  rw [val_main_v14_apply, val_main_v13_apply, val_main_v11_apply, val_main_v8_apply, val_main_v7_apply,
    val_main_cst_apply, val_main_v6_apply, val_main_v4_apply, val_main_v3_apply, val_main_v1_apply, val_main_v2_apply,
    val_main_v0_apply, val_main_v12_apply, val_main_v10_apply, val_main_v9_apply, val_main_v5_apply]
  have e1 : idx_main_v1 (idx_main_v6 (idx_main_v11 (ix4 b n m c))) = ix3 b n (0 : Fin 1) :=
    funext fun a => by match a with | ⟨0, _⟩ => rfl | ⟨1, _⟩ => rfl | ⟨2, _⟩ => rfl
  have e2 : idx_main_v0 (idx_main_v2 (idx_main_v6 (idx_main_v11 (ix4 b n m c)))) = ix3 b m (0 : Fin 1) :=
    funext fun a => by match a with | ⟨0, _⟩ => rfl | ⟨1, _⟩ => rfl | ⟨2, _⟩ => rfl
  have e3 : idx_main_v10 (idx_main_v12 (ix4 b n m c)) = ix1 c :=
    funext fun a => by match a with | ⟨0, _⟩ => rfl
  rw [e1, e2, e3]
  rfl

/-- The channels — ones in front of the features — at (b, n, c). -/
theorem chan_read (x1 : FeatArr) (b : Fin 8) (n : Fin 1024) (c : Fin 9) :
    val_main_v17 (F := Ideal) x1 (ix3 b n c) = chan x1 b n c := by
  unfold val_main_v17 chan
  by_cases hc : c.val = 0
  · rw [dif_pos hc]
    refine (concatenate_pair_apply_left (s₁ := S8x1024x1) (s₂ := S8x1024x8) (2 : Fin 3) _ _ _ (ix3 b n c) rfl
      (ix3 b n (0 : Fin 1)) (fun a => ?_)).trans ?_
    · match a with
      | ⟨0, _⟩ => rfl
      | ⟨1, _⟩ => rfl
      | ⟨2, _⟩ => exact hc.symm
    · rw [val_main_v16_apply, val_main_cst_0_apply]; rfl
  · rw [dif_neg hc]
    refine concatenate_pair_apply_right (s₁ := S8x1024x1) (s₂ := S8x1024x8) (2 : Fin 3) _ _ _ (ix3 b n c) rfl rfl
      (ix3 b n (below c hc)) (fun a ha => ?_) ?_
    · match a, ha with
      | ⟨0, _⟩, _ => rfl
      | ⟨1, _⟩, _ => rfl
      | ⟨2, _⟩, ha => exact absurd rfl ha
    · show (c.val - 1) + 1 = c.val
      omega

/-- The products summed over the context points, at (b, n, m, c). -/
theorem prod_read (x0 : PosArr) (x1 : FeatArr) (x2 : PosArr) (x3 : ScaleArr) (b : Fin 8) (n m : Fin 1024) (c : Fin 9) :
    val_main_v20 (F := Ideal) x0 x1 x2 x3 (ix4 b n m c) = chan x1 b n c * weight x0 x2 x3 b n m c := by
  rw [val_main_v20_apply, val_main_v19_apply, val_main_v18_apply, weight_read]
  have e : idx_main_v18 (idx_main_v19 (ix4 b n m c)) = ix3 b n c :=
    funext fun a => by match a with | ⟨0, _⟩ => rfl | ⟨1, _⟩ => rfl | ⟨2, _⟩ => rfl
  rw [e, chan_read]
  rfl

/-- The sum over the context points, at (b, m, c): the initial value is the f32 zero. -/
theorem summed_read (x0 : PosArr) (x1 : FeatArr) (x2 : PosArr) (x3 : ScaleArr) (b : Fin 8) (m : Fin 1024) (c : Fin 9) :
    val_main_v21 (F := Ideal) x0 x1 x2 x3 (ix3 b m c) = summed x0 x1 x2 x3 b m c := by
  rw [val_main_v21_apply, val_main_cst_1_apply]
  show Ideal.ofBits .f32 0x00000000#32 + _ = _
  rw [Ideal.ofBits_zero_f32, zero_add]
  unfold summed
  refine Finset.sum_congr rfl fun k _ => ?_
  have e : idx_main_v21 (ix3 b m c) k = ix4 b k m c :=
    funext fun a => by match a with | ⟨0, _⟩ => rfl | ⟨1, _⟩ => rfl | ⟨2, _⟩ => rfl | ⟨3, _⟩ => rfl
  rw [e, prod_read]

/-- The density in front of the normalized channels, at (b, m, c). -/
theorem normed_read (x0 : PosArr) (x1 : FeatArr) (x2 : PosArr) (x3 : ScaleArr) (b : Fin 8) (m : Fin 1024) (c : Fin 9) :
    val_main_v28 (F := Ideal) x0 x1 x2 x3 (ix3 b m c) = normed x0 x1 x2 x3 b m c := by
  have dens : ∀ z : Fin 1, val_main_v22 (F := Ideal) x0 x1 x2 x3 (ix3 b m z) = summed x0 x1 x2 x3 b m (0 : Fin 9) := fun z => by
    rw [val_main_v22_apply]
    have e : idx_main_v22 (ix3 b m z) = ix3 b m (0 : Fin 9) :=
      funext fun a => by
        match a with
        | ⟨0, _⟩ => rfl
        | ⟨1, _⟩ => rfl
        | ⟨2, _⟩ => exact Fin.ext (by show z.val = 0; omega)
    rw [e, summed_read]
  unfold val_main_v28 normed
  by_cases hc : c.val = 0
  · rw [if_pos hc]
    refine (concatenate_pair_apply_left (s₁ := S8x1024x1) (s₂ := S8x1024x8) (2 : Fin 3) _ _ _ (ix3 b m c) rfl
      (ix3 b m (0 : Fin 1)) (fun a => ?_)).trans (dens 0)
    match a with
    | ⟨0, _⟩ => rfl
    | ⟨1, _⟩ => rfl
    | ⟨2, _⟩ => exact hc.symm
  · rw [if_neg hc]
    refine (concatenate_pair_apply_right (s₁ := S8x1024x1) (s₂ := S8x1024x8) (2 : Fin 3) _ _ _ (ix3 b m c) rfl rfl
      (ix3 b m (below c hc)) (fun a ha => ?_) ?_).trans ?_
    · match a, ha with
      | ⟨0, _⟩, _ => rfl
      | ⟨1, _⟩, _ => rfl
      | ⟨2, _⟩, ha => exact absurd rfl ha
    · show (c.val - 1) + 1 = c.val
      omega
    · rw [val_main_v27_apply, val_main_v23_apply, val_main_v26_apply, val_main_v25_apply, val_main_v24_apply,
        val_main_cst_2_apply]
      have e1 : idx_main_v23 (ix3 b m (below c hc)) = ix3 b m c :=
        funext fun a => by
          match a with
          | ⟨0, _⟩ => rfl
          | ⟨1, _⟩ => rfl
          | ⟨2, _⟩ => exact Fin.ext (by show 1 + (c.val - 1) = c.val; omega)
      have e2 : idx_main_v26 (ix3 b m (below c hc)) = ix3 b m (0 : Fin 1) :=
        funext fun a => by match a with | ⟨0, _⟩ => rfl | ⟨1, _⟩ => rfl | ⟨2, _⟩ => rfl
      rw [e1, e2, summed_read, dens 0]
      rfl

/-- THE REFERENCE'S RESULT is the specification's function of the six arguments. -/
theorem result_read (x0 : PosArr) (x1 : FeatArr) (x2 : PosArr) (x3 : ScaleArr) (x4 : MatArr) (x5 : BiasArr) :
    val_main_v32 (F := Ideal) x0 x1 x2 x3 x4 x5 = result x0 x1 x2 x3 x4 x5 := by
  funext i
  obtain ⟨b, m, o, rfl⟩ : ∃ (b : Fin 8) (m : Fin 1024) (o : Fin 16), i = ix3 b m o := ⟨i 0, i 1, i 2, eq_ix3 i⟩
  rw [result_ix3, val_main_v32_apply, val_main_v29_apply, val_main_v31_apply, val_main_v30_apply]
  unfold resultAt
  have e : idx_main_v30 (idx_main_v31 (ix3 b m o)) = ix1 o :=
    funext fun a => by match a with | ⟨0, _⟩ => rfl
  rw [e]
  show (∑ k : Fin 9, _) + x5 (ix1 o) = _
  refine congrArg (· + x5 (ix1 o)) (Finset.sum_congr rfl fun k _ => ?_)
  have el : lidx_main_v29 (ix3 b m o) k = ix3 b m k :=
    funext fun a => by match a with | ⟨0, _⟩ => rfl | ⟨1, _⟩ => rfl | ⟨2, _⟩ => rfl
  have er : ridx_main_v29 (ix3 b m o) k = ix2 o k :=
    funext fun a => by match a with | ⟨0, _⟩ => rfl | ⟨1, _⟩ => rfl
  rw [el, er, normed_read]

end Cert.SetConv.Ref

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.FiniteInputs.lean ====
/-
  From the precondition to real entries.

  The precondition is the conjunction, over the six arguments, of  all(|v| < +∞).  It is computed as a chain of
  `and`s of six one-index reductions; the chain being 1 makes every link 1, and a link that is 1 makes every entry
  of its argument a real number (LibFiniteEntries.lean). Only the positions and the log length scales are needed:
  the law that joins the two programs is about the exponent, which involves nothing else.
-/
import proofs.«100549_j463856468358_2_alg».proof.Pre_finite_inputs
import proofs.«100549_j463856468358_2_alg».proof.Proof.LibFiniteEntries
import Idealize.ShloMosaic.Lib.Affine
import Idealize.ShloMosaic.Lib.ValueIdx

noncomputable section

namespace Cert.SetConv.Finite

open Idealize.ShloMosaic Idealize.ShloMosaic.ValueIdx Cert.Pre_finite_inputs

variable [Cert.Pre_finite_inputs.Facts]

/-- Under the precondition the two position arrays and the log length scales hold real numbers. -/
theorem real_inputs (a0 : FVec Ideal S8x1024x1 .f32) (a1 : FVec Ideal S8x1024x8 .f32) (a2 : FVec Ideal S8x1024x1 .f32)
    (a3 : FVec Ideal S9 .f32) (a4 : FVec Ideal S16x9 .f32) (a5 : FVec Ideal S16 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  dsimp only [fn, fn_part1] at h0
  obtain ⟨h1, -⟩ := IntOp.andi_eq_one.mp h0
  obtain ⟨h2, -⟩ := IntOp.andi_eq_one.mp h1
  obtain ⟨h3, k3⟩ := IntOp.andi_eq_one.mp h2
  obtain ⟨h4, k2⟩ := IntOp.andi_eq_one.mp h3
  obtain ⟨k0, -⟩ := IntOp.andi_eq_one.mp h4
  exact ⟨fun i => Cert.LibFiniteEntries.real_of_all a0 _ _ _ _ ix0 k0 i,
    fun i => Cert.LibFiniteEntries.real_of_all a2 _ _ _ _ ix0 k2 i,
    fun i => Cert.LibFiniteEntries.real_of_all a3 _ _ _ _ ix0 k3 i⟩

end Cert.SetConv.Finite

end
-- ==== Proof.lean ====
/-
  A set convolution with Gaussian weights followed by a pointwise linear layer: the tiled kernel and the plain
  array program compute the same function on the extended reals.

  Both programs take context positions x[b,n], context features y[b,n,·], target positions t[b,m], log length scales
  σ[c], a matrix W and a bias β, and return, at batch element b, target point m and output channel o,

      Σ_c normed(b,m,c) · W[o,c] + β[o],

  where normed is the sum over the context points of channel c (a density channel of ones, then the features) times
  exp(-½ · (distance)² / (e^σ_c)²), the channels c ≥ 1 divided by the density channel plus ε (SetConvSpec.lean).

  The reference forms the whole [8,1024,1024,9] weight tensor and reduces it (ReferenceIsSpec.lean). The kernel
  handles one batch element and 128 target points per grid point: it keeps the weights of its tile on chip, sums them
  against the channels with one batched product, normalizes and applies the linear layer, and writes back a
  [128,16] block (BodyStages.lean, BodyAtIndex.lean); the 64 blocks tile the result (KernelIsSpec.lean).

  The two differ in three ways, none of which changes the value: the kernel squares t - x where the reference squares
  x - t, the kernel multiplies by a reciprocal 1/(e^σ·e^σ) where the reference divides, and the factors of each
  product come in the other order. The first two are equalities of real numbers that fail at infinities, so they use
  the precondition: the positions and the log length scales are finite (RbfExponent.lean, FiniteInputs.lean,
  TileIsSpec.lean). A change of float format is the identity on extended reals, so the kernel's narrowing of the
  product's operands does not appear.

  The three frame claims are the generated frame proofs and the reference's generated run; the idealization rewrote
  no operation, so there is nothing to preserve.
-/
import proofs.«100549_j463856468358_2_alg».proof.Defs
import proofs.«100549_j463856468358_2_alg».proof.Proof.Gen.Kernel
import proofs.«100549_j463856468358_2_alg».proof.Proof.Gen.Kernel.Skeleton
import proofs.«100549_j463856468358_2_alg».proof.Proof.Gen.Kernel.Launch
import proofs.«100549_j463856468358_2_alg».proof.Proof.Gen.Kernel.Points
import proofs.«100549_j463856468358_2_alg».proof.Proof.Gen.Kernel.Frame
import proofs.«100549_j463856468358_2_alg».proof.Proof.Gen.KernelIdeal
import proofs.«100549_j463856468358_2_alg».proof.Proof.Gen.KernelIdeal.Skeleton
import proofs.«100549_j463856468358_2_alg».proof.Proof.Gen.KernelIdeal.Launch
import proofs.«100549_j463856468358_2_alg».proof.Proof.Gen.KernelIdeal.Points
import proofs.«100549_j463856468358_2_alg».proof.Proof.Gen.KernelIdeal.Frame
import proofs.«100549_j463856468358_2_alg».proof.Proof.Gen.ReferenceIdeal
import proofs.«100549_j463856468358_2_alg».proof.Proof.Gen.KernelIdeal.Value
import proofs.«100549_j463856468358_2_alg».proof.Proof.Gen.ReferenceIdeal.Run
import proofs.«100549_j463856468358_2_alg».proof.Proof.Gen.ReferenceIdeal.Read
import proofs.«100549_j463856468358_2_alg».proof.Proof.Gen.Pre_finite_inputs
import proofs.«100549_j463856468358_2_alg».proof.Proof.KernelIsSpec
import proofs.«100549_j463856468358_2_alg».proof.Proof.ReferenceIsSpec
import proofs.«100549_j463856468358_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and are finite, both programs end at the specification's function of the arguments. -/
theorem algebraic : Cert.algebraic_KernelIdeal_ReferenceIdeal := by
  intro m ρ m' ρ' hpre hagree
  have real : ∀ c : Dev Cert.KernelIdeal.nD,
      (∀ i, ∃ v : ℝ, m ((c : Thread Cert.KernelIdeal.nD Cert.KernelIdeal.τ).loc Cert.KernelIdeal.main_arg0) i = (v : EReal))
      ∧ (∀ i, ∃ v : ℝ, m ((c : Thread Cert.KernelIdeal.nD Cert.KernelIdeal.τ).loc Cert.KernelIdeal.main_arg2) i = (v : EReal))
      ∧ (∀ i, ∃ v : ℝ, m ((c : Thread Cert.KernelIdeal.nD Cert.KernelIdeal.τ).loc Cert.KernelIdeal.main_arg3) i = (v : EReal)) :=
    fun c => Cert.SetConv.Finite.real_inputs _ _ _ _ _ _ (hpre c)
  refine ⟨fun c => Cert.SetConv.Launch.spec m c, Cert.SetConv.Launch.run m ρ real, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.SetConv.Ref.result_read, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
